-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4x64 : Shape := ⟨2, ![4, 64]⟩
abbrev S64x4 : Shape := ⟨2, ![64, 4]⟩
abbrev S4 : Shape := ⟨1, ![4]⟩
abbrev S3200000 : Shape := ⟨1, ![3200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4x64 : S_.BroadcastsInDim S4x64 (![] : Fin 0 → Fin S4x64.rank)
  reducesTo_S4x64_S_d0_1 : S4x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg7 : FVec F S4 .f32) (main_arg8 : FVec F S3200000 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S3200000 .f32 := Host.absf main_arg8
  let main_cst_14 : FVec F S_ .f32 := constant S_ .f32 0x7F800000#32
  let main_v40 : FVec F S3200000 .f32 := broadcastInDim S3200000 ![] bcast_S_S3200000 main_cst_14
  let main_v41 : IVec S3200000 1 := cmpf .olt main_v39 main_v40
  let main_c_15 : IVec S_ 1 := constantI S_ 1 1#1
  let main_v42 : IVec S_ 1 := (fun x v => Host.reduce IntOp.andi x v reducesTo_S3200000_S_d0 h_S_) main_v41 main_c_15
  let main_v43 : IVec S_ 1 := andi main_v38 main_v42
  main_v43

def fn_part1 {F : FTy → Type} [FloatOps F] (main_arg4 : FVec F S64x4 .f32) (main_arg5 : FVec F S4 .f32) (main_arg6 : FVec F S64x4 .f32) (main_arg7 : FVec F S4 .f32) (main_arg8 : FVec F S3200000 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64x4 .f32 := Host.absf main_arg4
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S64x4 .f32 := Host.absf main_arg6
  let main_cst_10 : FVec F S_ .f32 := constant S_ .f32 0x7F800000#32
  let main_v30 : FVec F S64x4 .f32 := broadcastInDim S64x4 ![] bcast_S_S64x4 main_cst_10
  let main_v31 : IVec S64x4 1 := cmpf .olt main_v29 main_v30
  let main_c_11 : IVec S_ 1 := constantI S_ 1 1#1
  let main_v32 : IVec S_ 1 := (fun x v => Host.reduce IntOp.andi x v reducesTo_S64x4_S_d0_1 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S50000x64 .f32) (main_arg2 : FVec F S4x64 .f32) (main_arg3 : FVec F S4x64 .f32) (main_arg4 : FVec F S64x4 .f32) (main_arg5 : FVec F S4 .f32) (main_arg6 : FVec F S64x4 .f32) (main_arg7 : FVec F S4 .f32) (main_arg8 : FVec F S3200000 .f32) (main_arg9 : IVec S3200000 32) (main_arg10 : IVec S3200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S50000x64 : Shape := ⟨2, ![50000, 64]⟩
abbrev S4x64 : Shape := ⟨2, ![4, 64]⟩
abbrev S64x4 : Shape := ⟨2, ![64, 4]⟩
abbrev S4 : Shape := ⟨1, ![4]⟩
abbrev S3200000 : Shape := ⟨1, ![3200000]⟩
abbrev S5000x64 : Shape := ⟨2, ![5000, 64]⟩
abbrev S5000x4 : Shape := ⟨2, ![5000, 4]⟩
abbrev S1x4 : Shape := ⟨2, ![1, 4]⟩
abbrev S5000 : Shape := ⟨1, ![5000]⟩
abbrev S5000x1 : Shape := ⟨2, ![5000, 1]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S6000x64 : Shape := ⟨2, ![6000, 64]⟩

abbrev nBuf : Space → Nat
  | .hbm => 65
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4x64, .f32⟩
  | .hbm, ⟨3, _⟩ => ⟨S4x64, .f32⟩
  | .hbm, ⟨4, _⟩ => ⟨S64x4, .f32⟩
  | .hbm, ⟨5, _⟩ => ⟨S4, .f32⟩
  | .hbm, ⟨6, _⟩ => ⟨S64x4, .f32⟩
  | .hbm, ⟨7, _⟩ => ⟨S4, .f32⟩
  | .hbm, ⟨8, _⟩ => ⟨S3200000, .f32⟩
  | .hbm, ⟨9, _⟩ => ⟨S3200000, .i32⟩
  | .hbm, ⟨10, _⟩ => ⟨S3200000, .i32⟩
  | .hbm, ⟨11, _⟩ => ⟨S100000x64, .f32⟩
  | .hbm, ⟨12, _⟩ => ⟨S50000x64, .f32⟩
  | .hbm, ⟨13, _⟩ => ⟨S150000x64, .f32⟩
  | .hbm, ⟨14, _⟩ => ⟨S3200000x1, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x64, .f32⟩
  | .hbm, ⟨24, _⟩ => ⟨S3200000x64, .f32⟩
  | .hbm, ⟨25, _⟩ => ⟨S3200000x64, .f32⟩
  | .hbm, ⟨26, _⟩ => ⟨S_, .f32⟩
  | .hbm, ⟨27, _⟩ => ⟨S150000x64, .f32⟩
  | .hbm, ⟨28, _⟩ => ⟨S3200000x1, .i32⟩
  | .hbm, ⟨29, _⟩ => ⟨S150000x64, .f32⟩
  | .hbm, ⟨30, _⟩ => ⟨S3200000x1, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x64, .f32⟩
  | .hbm, ⟨40, _⟩ => ⟨S3200000x64, .f32⟩
  | .hbm, ⟨41, _⟩ => ⟨S3200000x64, .f32⟩
  | .hbm, ⟨42, _⟩ => ⟨S_, .f32⟩
  | .hbm, ⟨43, _⟩ => ⟨S150000x64, .f32⟩
  | .hbm, ⟨44, _⟩ => ⟨S3200000x1, .i32⟩
  | .hbm, ⟨45, _⟩ => ⟨S150000x64, .f32⟩
  | .hbm, ⟨46, _⟩ => ⟨S3200000x1, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S150000x64, .f32⟩
  | .hbm, ⟨60, _⟩ => ⟨S3200000x1, .i32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x4, .f32⟩
  | .local _ .vmem, ⟨3, _⟩ => ⟨S4, .f32⟩
  | .local _ .vmem, ⟨4, _⟩ => ⟨S4x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x4, .f32⟩
  | .local _ .vmem, ⟨10, _⟩ => ⟨S4, .f32⟩
  | .local _ .vmem, ⟨11, _⟩ => ⟨S4x64, .f32⟩
  | .local _ .vmem, ⟨12, _⟩ => ⟨S5000x64, .f32⟩
  | .local _ .vmem, ⟨13, _⟩ => ⟨S5000x64, .f32⟩
  | .local _ .vmem, ⟨14, _⟩ => ⟨S6000x64, .f32⟩
  | .local _ .vmem, ⟨15, _⟩ => ⟨S6000x64, .f32⟩
  | .local _ .vmem, ⟨16, _⟩ => ⟨S6000x64, .f32⟩
  | .local _ .vmem, ⟨17, _⟩ => ⟨S6000x64, .f32⟩
  | .local _ .vmem, ⟨18, _⟩ => ⟨S6000x64, .f32⟩
  | .local _ .vmem, ⟨19, _⟩ => ⟨S6000x64, .f32⟩
  | .local _ .vmem, ⟨20, _⟩ => ⟨S6000x64, .f32⟩
  | .local _ .vmem, ⟨21, _⟩ => ⟨S6000x64, .f32⟩
  | .local _ .vmem, ⟨22, _⟩ => ⟨S6000x64, .f32⟩
  | .local _ .vmem, ⟨23, _⟩ => ⟨S6000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S6000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S5000x64_S5000x64_0_0 : ∀ a, (![0, 0] : Fin 2 → Nat) a + S5000x64.size a ≤ S5000x64.size a
  h_S5000x64 : 0 < S5000x64.numel
  inb_S64x4_S64x4_0_0 : ∀ a, (![0, 0] : Fin 2 → Nat) a + S64x4.size a ≤ S64x4.size a
  h_S64x4 : 0 < S64x4.numel
  inb_S4_S4_0 : ∀ a, (![0] : Fin 1 → Nat) a + S4.size a ≤ S4.size a
  h_S4 : 0 < S4.numel
  inb_S4x64_S4x64_0_0 : ∀ a, (![0, 0] : Fin 2 → Nat) a + S4x64.size a ≤ S4x64.size a
  h_S4x64 : 0 < S4x64.numel
  bitsLt_bf16_f32 : FTy.bits .bf16 < FTy.bits .f32
  shapeCasts_S4_S1x4 : S4.ShapeCasts S1x4
  broadcasts_S1x4_S5000x4 : S1x4.Broadcasts S5000x4
  reduces_S5000x4_S5000 : S5000x4.Reduces [1] S5000
  shapeCasts_S5000_S5000x1 : S5000.ShapeCasts S5000x1
  broadcasts_S5000x1_S5000x4 : S5000x1.Broadcasts S5000x4
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  slices_S150000x64_S100000x64_0_0 : S150000x64.Slices ![0, 0] S100000x64
  slices_S150000x64_S50000x64_100000_0 : S150000x64.Slices ![100000, 0] S50000x64
  dot_S5000x64_S64x4_S5000x4_1_0_0_1_n_n_wf : DotDims.WF S5000x64 S64x4 S5000x4 [1] [0] [0] [1] [] []
  dot_S5000x4_S4x64_S5000x64_1_0_0_1_n_n_wf : DotDims.WF S5000x4 S4x64 S5000x64 [1] [0] [0] [1] [] []
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x4.size a ≤ S64x4.size a
  hwx1_1 : ∀ i : grid1.Coords, EltTy.bits .f32 = 32 ∨ (Rect.block (s := S64x4) S64x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4.size a ≤ S4.size a
  hwx1_2 : ∀ i : grid1.Coords, EltTy.bits .f32 = 32 ∨ (Rect.block (s := S4) S4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S150000x64.size a
  hwx2_1 : ∀ i : grid2.Coords, EltTy.bits .f32 = 32 ∨ (Rect.block (s := S150000x64) S6000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S150000x64.size a
  hwx2_2 : ∀ i : grid2.Coords, EltTy.bits .f32 = 32 ∨ (Rect.block (s := S150000x64) S6000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x64.size a ≤ S150000x64.size a
  hwx2_3 : ∀ i : grid2.Coords, EltTy.bits .f32 = 32 ∨ (Rect.block (s := S150000x64) S6000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x64.size a ≤ S150000x64.size a
  hwx2_4 : ∀ i : grid2.Coords, EltTy.bits .f32 = 32 ∨ (Rect.block (s := S150000x64) S6000x64.size (cc2_transform_4 i) (hinb2_4 i)).WholeWords (EltTy.packing .f32)

variable [Facts₀]

def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v2) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S6000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S6000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42) S6000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4x64 : Shape := ⟨2, ![4, 64]⟩
abbrev S64x4 : Shape := ⟨2, ![64, 4]⟩
abbrev S4 : Shape := ⟨1, ![4]⟩
abbrev S3200000 : Shape := ⟨1, ![3200000]⟩
abbrev S100000x4 : Shape := ⟨2, ![100000, 4]⟩
abbrev S1x4 : Shape := ⟨2, ![1, 4]⟩
abbrev S_ : Shape := ⟨0, ![]⟩
abbrev S100000 : Shape := ⟨1, ![100000]⟩
abbrev S100000x1 : Shape := ⟨2, ![100000, 1]⟩
abbrev S50000x4 : Shape := ⟨2, ![50000, 4]⟩
abbrev S50000 : Shape := ⟨1, ![50000]⟩
abbrev S50000x1 : Shape := ⟨2, ![50000, 1]⟩
abbrev S150000x64 : Shape := ⟨2, ![150000, 64]⟩
abbrev S3200000x1 : Shape := ⟨2, ![3200000, 1]⟩
abbrev S3200000x64 : Shape := ⟨2, ![3200000, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4x64, .f32⟩
  | .hbm, ⟨3, _⟩ => ⟨S4x64, .f32⟩
  | .hbm, ⟨4, _⟩ => ⟨S64x4, .f32⟩
  | .hbm, ⟨5, _⟩ => ⟨S4, .f32⟩
  | .hbm, ⟨6, _⟩ => ⟨S64x4, .f32⟩
  | .hbm, ⟨7, _⟩ => ⟨S4, .f32⟩
  | .hbm, ⟨8, _⟩ => ⟨S3200000, .f32⟩
  | .hbm, ⟨9, _⟩ => ⟨S3200000, .i32⟩
  | .hbm, ⟨10, _⟩ => ⟨S3200000, .i32⟩
  | .hbm, ⟨11, _⟩ => ⟨S100000x4, .f32⟩
  | .hbm, ⟨12, _⟩ => ⟨S1x4, .f32⟩
  | .hbm, ⟨13, _⟩ => ⟨S100000x4, .f32⟩
  | .hbm, ⟨14, _⟩ => ⟨S100000x4, .f32⟩
  | .hbm, ⟨15, _⟩ => ⟨S_, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x4, .f32⟩
  | .hbm, ⟨22, _⟩ => ⟨S100000x4, .f32⟩
  | .hbm, ⟨23, _⟩ => ⟨S100000x4, .f32⟩
  | .hbm, ⟨24, _⟩ => ⟨S_, .f32⟩
  | .hbm, ⟨25, _⟩ => ⟨S100000, .f32⟩
  | .hbm, ⟨26, _⟩ => ⟨S100000x1, .f32⟩
  | .hbm, ⟨27, _⟩ => ⟨S100000x4, .f32⟩
  | .hbm, ⟨28, _⟩ => ⟨S100000x4, .f32⟩
  | .hbm, ⟨29, _⟩ => ⟨S100000x64, .f32⟩
  | .hbm, ⟨30, _⟩ => ⟨S50000x4, .f32⟩
  | .hbm, ⟨31, _⟩ => ⟨S1x4, .f32⟩
  | .hbm, ⟨32, _⟩ => ⟨S50000x4, .f32⟩
  | .hbm, ⟨33, _⟩ => ⟨S50000x4, .f32⟩
  | .hbm, ⟨34, _⟩ => ⟨S_, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x4, .f32⟩
  | .hbm, ⟨41, _⟩ => ⟨S50000x4, .f32⟩
  | .hbm, ⟨42, _⟩ => ⟨S50000x4, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x4, .f32⟩
  | .hbm, ⟨47, _⟩ => ⟨S50000x4, .f32⟩
  | .hbm, ⟨48, _⟩ => ⟨S50000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S150000x64, .f32⟩
  | .hbm, ⟨58, _⟩ => ⟨S3200000x1, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x64, .f32⟩
  | .hbm, ⟨68, _⟩ => ⟨S3200000x64, .f32⟩
  | .hbm, ⟨69, _⟩ => ⟨S3200000x64, .f32⟩
  | .hbm, ⟨70, _⟩ => ⟨S_, .f32⟩
  | .hbm, ⟨71, _⟩ => ⟨S150000x64, .f32⟩
  | .hbm, ⟨72, _⟩ => ⟨S3200000x1, .i32⟩
  | .hbm, ⟨73, _⟩ => ⟨S150000x64, .f32⟩
  | .hbm, ⟨74, _⟩ => ⟨S150000x64, .f32⟩
  | .hbm, ⟨75, _⟩ => ⟨S3200000x1, .f32⟩
  | .hbm, ⟨76, _⟩ => ⟨S_, .i32⟩
  | .hbm, ⟨77, _⟩ => ⟨S3200000, .i32⟩
  | .hbm, ⟨78, _⟩ => ⟨S3200000, .i1⟩
  | .hbm, ⟨79, _⟩ => ⟨S_, .i32⟩
  | .hbm, ⟨80, _⟩ => ⟨S3200000, .i32⟩
  | .hbm, ⟨81, _⟩ => ⟨S3200000, .i32⟩
  | .hbm, ⟨82, _⟩ => ⟨S3200000, .i32⟩
  | .hbm, ⟨83, _⟩ => ⟨S3200000x1, .i32⟩
  | .hbm, ⟨84, _⟩ => ⟨S3200000x64, .f32⟩
  | .hbm, ⟨85, _⟩ => ⟨S3200000x64, .f32⟩
  | .hbm, ⟨86, _⟩ => ⟨S3200000x64, .f32⟩
  | .hbm, ⟨87, _⟩ => ⟨S_, .f32⟩
  | .hbm, ⟨88, _⟩ => ⟨S150000x64, .f32⟩
  | .hbm, ⟨89, _⟩ => ⟨S3200000x1, .i32⟩
  | .hbm, ⟨90, _⟩ => ⟨S150000x64, .f32⟩
  | .hbm, ⟨91, _⟩ => ⟨S150000x64, .f32⟩
  | .hbm, ⟨92, _⟩ => ⟨S3200000x1, .f32⟩
  | .hbm, ⟨93, _⟩ => ⟨S_, .i32⟩
  | .hbm, ⟨94, _⟩ => ⟨S3200000, .i32⟩
  | .hbm, ⟨95, _⟩ => ⟨S3200000, .i1⟩
  | .hbm, ⟨96, _⟩ => ⟨S_, .i32⟩
  | .hbm, ⟨97, _⟩ => ⟨S3200000, .i32⟩
  | .hbm, ⟨98, _⟩ => ⟨S3200000, .i32⟩
  | .hbm, ⟨99, _⟩ => ⟨S3200000, .i32⟩
  | .hbm, ⟨100, _⟩ => ⟨S3200000x1, .i32⟩
  | .hbm, ⟨101, _⟩ => ⟨S3200000x64, .f32⟩
  | .hbm, ⟨102, _⟩ => ⟨S3200000x64, .f32⟩
  | .hbm, ⟨103, _⟩ => ⟨S3200000x64, .f32⟩
  | .hbm, ⟨104, _⟩ => ⟨S_, .f32⟩
  | .hbm, ⟨105, _⟩ => ⟨S150000x64, .f32⟩
  | .hbm, ⟨106, _⟩ => ⟨S3200000x1, .i32⟩
  | .hbm, ⟨107, _⟩ => ⟨S150000x64, .f32⟩
  | .hbm, ⟨108, _⟩ => ⟨S150000x64, .f32⟩
  | .hbm, ⟨109, _⟩ => ⟨S_, .f32⟩
  | .hbm, ⟨110, _⟩ => ⟨S150000x64, .f32⟩
  | .hbm, ⟨111, _⟩ => ⟨S150000x64, .f32⟩
  | .hbm, ⟨112, _⟩ => ⟨S100000x64, .f32⟩
  | .hbm, ⟨113, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1x4_S50000x4_0_1 : S1x4.BroadcastsInDim S50000x4 (![0, 1] : Fin 2 → Fin S50000x4.rank)
  reducesTo_S50000x4_S50000_d1 : S50000x4.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S100000x64 : S_.BroadcastsInDim S100000x64 (![] : Fin 0 → Fin S100000x64.rank)
  bcast_S_S50000x64 : S_.BroadcastsInDim S50000x64 (![] : Fin 0 → Fin S50000x64.rank)
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  dot_S100000x64_S64x4_S100000x4_1_0_0_1_n_n_wf : DotDims.WF S100000x64 S64x4 S100000x4 [1] [0] [0] [1] [] []
  dot_S100000x4_S4x64_S100000x64_1_0_0_1_n_n_wf : DotDims.WF S100000x4 S4x64 S100000x64 [1] [0] [0] [1] [] []
  dot_S50000x64_S64x4_S50000x4_1_0_0_1_n_n_wf : DotDims.WF S50000x64 S64x4 S50000x4 [1] [0] [0] [1] [] []
  dot_S50000x4_S4x64_S50000x64_1_0_0_1_n_n_wf : DotDims.WF S50000x4 S4x64 S50000x64 [1] [0] [0] [1] [] []
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1

variable [Facts₀]

def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf
def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf
def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf

class Facts : Prop extends Facts₀ where

variable [Facts]
-- ==== Proof.KernelRun.lean ====
/-
  The idealized kernel's run, with every buffer named.

  @main is five segments: the user-side fusion (a pallas region), the item-side fusion (a region), the host stretch
  that joins the two and propagates three times over the graph, the averaging region, and the two closing slices.
  The contents of the TensorCore's buffers at the boundaries between segments are a fold from the launch memory
  (W0 … W5). The statement here keeps what the launch theorem gives before anything is forgotten: in every final
  state of every weakly fair execution, each unscoped buffer holds the last boundary's contents W5. The results and
  the arguments are then read off W5 by name.
-/
import proofs.«118412_j20684562498310_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer of
    every core holds the contents W5 of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- A reference of @main (an argument, an intermediate or a result) is an unscoped buffer, so the run leaves it at W5. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem (((c : Thread nD τ)).1, Proc.devRef .tc b) = W5 m ρ c (Proc.devRef .tc b)) :=
  (θ_run defs _ _).mono (fun r h c b hb => h c _ (mem_uc b hb)) (run_all m ρ)

end Cert.KernelIdeal.Results

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«118412_j20684562498310_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibHostRows.lean ====
/-
  The host's maximum over the second axis of a matrix, read at a row, at the exact (extended-real) values.

  Row `t` of an `[a, b]` array reduced over its second axis by `stablehlo.reduce` with a maximum collects the entries
  `(t, s)`, `s` running over the `b` columns: the fold of `max` over them from the starting value's one element. (The
  kernel-side `multi_reduction` forms and the stack form `[n, a, b]` are in LibRows.lean, whose coordinate lemma this uses.)
-/
import proofs.«118412_j20684562498310_1_alg».proof.Proof.LibRows

namespace Idealize.ShloMosaic.ValueIdx

open Idealize.ShloMosaic

variable {φ : FTy}

/-- The host's maximum over the second axis of a matrix: at `t` the fold of `max` over the entries `(t, s)`, from the
    starting value's one element. -/
theorem hostRowMax_apply {a b : ℕ} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (t : Fin a) :
    Host.reduce FloatOps.maximumf x init h' hu (ix1 t)
      = (Finset.univ : Finset (Fin b)).fold max (init ix0) (fun s => x (ix2 t s)) := by
  rw [Host.reduce_eq_fold_single FloatOps.maximumf x init h' h hu, eq_ix0 (Shape.Idx.first hu)]
  have e : (x ∘ h.lift (ix1 t)) = fun s : Fin b => x (ix2 t s) := funext fun s => congrArg x (lift_last_ix2 h t s)
  rw [e]
  rfl

end Idealize.ShloMosaic.ValueIdx
-- ==== Proof.LibHostRowSum.lean ====
/-
  The host's sum over the last axis of a matrix read at a row, at the exact (extended-real) values.

  Row `t` of an `[a, b]` array summed over its second axis by the host's reduction is the starting value's one element
  plus the sum of the entries `(t, s)`, `s` running over the `b` columns.
-/
import proofs.«118412_j20684562498310_1_alg».proof.Proof.LibRows
import Idealize.ShloMosaic.PureOps.Ideal.Laws
import Idealize.ShloMosaic.Lib.ValueIdx

open scoped BigOperators

namespace Idealize.ShloMosaic.ValueIdx

open Idealize.ShloMosaic

variable {φ : FTy}

/-- The host's row sum: the starting value plus the sum of the row's entries. -/
theorem hostRowSum_apply {a b : ℕ} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (t : Fin a) :
    Host.reduceAdd x init h' hu (ix1 t) = init ix0 + ∑ s : Fin b, x (ix2 t s) := by
  show Ideal.hostReduceAdd h' x (init (Shape.Idx.first hu)) (ix1 t) = _
  rw [Ideal.hostReduceAdd_single h' h, eq_ix0 (Shape.Idx.first hu)]
  refine congrArg (init ix0 + ·) ?_
  show ∑ s : Fin b, _ = _
  exact Finset.sum_congr rfl fun s _ => congrArg x (lift_last_ix2 h t s)

end Idealize.ShloMosaic.ValueIdx
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibSoftmaxMix.lean ====
/-
  A softmax-weighted mix of a small table, read at coordinates at the extended reals.

  For an array e of M rows and D features, a weight matrix W [D, C], a bias b [C] and a table I [C, D]:
  the logits are l (p, k) = sum over j of e (p, j) * W (j, k), plus b (k); a row of logits becomes weights by the
  shifted softmax, w (p, k) = exp (l (p, k) - top p) / sum over s of exp (l (p, s) - top p), where top p is the
  largest logit of the row (the maximum taken from the starting value lo, and once more with lo); and row p of e
  moves towards the mixed table row: e (p, q) + c * sum over k of w (p, k) * I (k, q).
  Entry (p, q) of the result depends on row p of e alone, so the result is written as a function of that row
  (mixRow). Two spellings are read here at coordinates, a kernel body's (matrix products into a zero accumulator,
  multi_reduction, shape casts and broadcasts) and a host program's (dot_general, stablehlo.reduce,
  broadcast_in_dim), for any extents; both are mixRow of the row. No finiteness is asked: the two spellings are the
  same extended reals term by term.
-/
import proofs.«118412_j20684562498310_1_alg».proof.Proof.LibPlainDot
import proofs.«118412_j20684562498310_1_alg».proof.Proof.LibRows
import proofs.«118412_j20684562498310_1_alg».proof.Proof.LibLayout
import proofs.«118412_j20684562498310_1_alg».proof.Proof.LibRow
import proofs.«118412_j20684562498310_1_alg».proof.Proof.LibHostDense
import proofs.«118412_j20684562498310_1_alg».proof.Proof.LibHostRows
import proofs.«118412_j20684562498310_1_alg».proof.Proof.LibHostRowSum
import proofs.«118412_j20684562498310_1_alg».proof.Proof.LibGcnLayer
import Idealize.ShloMosaic.Lib.ValueLayout

noncomputable section

namespace Cert.LibSoftmaxMix

open Idealize.ShloMosaic Idealize.ShloMosaic.ValueIdx
open scoped BigOperators

/-! ## The functions of one row -/

section Row

variable {D C : ℕ}

/-- The shift of a row of logits: its largest entry, the maximum started from `lo` and taken with `lo` once more. -/
def rowTop (lo : EReal) (l : Fin C → EReal) : EReal := max lo ((Finset.univ : Finset (Fin C)).fold max lo l)

/-- The shifted exponential of entry `k` of a row of logits. -/
def rowExp (lo : EReal) (l : Fin C → EReal) (k : Fin C) : EReal := Ideal.exp (l k - rowTop lo l)

/-- The softmax weight of entry `k` of a row of logits. -/
def rowWeight (lo : EReal) (l : Fin C → EReal) (k : Fin C) : EReal :=
  Ideal.div (rowExp lo l k) (∑ s : Fin C, rowExp lo l s)

/-- The logits of a row `e` of features. -/
def logitRow (W : FVec Ideal ⟨2, ![D, C]⟩ .f32) (b : FVec Ideal ⟨1, ![C]⟩ .f32) (e : Fin D → EReal) (k : Fin C) : EReal :=
  (∑ j : Fin D, e j * W (ix2 j k)) + b (ix1 k)

/-- The row moved towards the softmax-weighted mix of the table's rows. -/
def mixRow (c lo : EReal) (W : FVec Ideal ⟨2, ![D, C]⟩ .f32) (b : FVec Ideal ⟨1, ![C]⟩ .f32)
    (I : FVec Ideal ⟨2, ![C, D]⟩ .f32) (e : Fin D → EReal) (q : Fin D) : EReal :=
  e q + c * ∑ k : Fin C, rowWeight lo (logitRow W b e) k * I (ix2 k q)

end Row

variable {M D C : ℕ}

/-! ## A kernel body's spelling -/

section Kernel

variable (hr : (⟨2, ![M, C]⟩ : Shape).Reduces [1] ⟨1, ![M]⟩) (hφ : FKind.Formats .f32)
  (hcol : (⟨1, ![M]⟩ : Shape).ShapeCasts ⟨2, ![M, 1]⟩) (hbc : (⟨2, ![M, 1]⟩ : Shape).Broadcasts ⟨2, ![M, C]⟩)

/-- The rows' shifts, repeated along the rows. -/
def kTop (lo : BitVec 32) (hlo : lo = FKind.maximumf.neutral .f32 hφ) (L : FVec Ideal ⟨2, ![M, C]⟩ .f32) :
    FVec Ideal ⟨2, ![M, C]⟩ .f32 :=
  broadcastTo ⟨2, ![M, C]⟩ (shapeCast ⟨2, ![M, 1]⟩
    (maximumf (broadcast ⟨1, ![M]⟩ (Scalar.ofBits (F := Ideal) .f32 lo)) (multiReduction .maximumf [1] ⟨1, ![M]⟩ L lo hr hφ hlo)) hcol) hbc

theorem kTop_apply (lo : BitVec 32) (hlo : lo = FKind.maximumf.neutral .f32 hφ) (L : FVec Ideal ⟨2, ![M, C]⟩ .f32)
    (p : Fin M) (k : Fin C) :
    kTop hr hφ hcol hbc lo hlo L (ix2 p k) = rowTop (Ideal.ofBits .f32 lo) (fun s => L (ix2 p s)) := by
  unfold kTop
  rw [broadcastTo_a1_ab_apply, shapeCast_a_a1_apply, maximumf_apply, broadcast_apply, rowMax_apply]
  rfl

/-- The shifted exponentials. -/
def kExp (lo : BitVec 32) (hlo : lo = FKind.maximumf.neutral .f32 hφ) (L : FVec Ideal ⟨2, ![M, C]⟩ .f32) :
    FVec Ideal ⟨2, ![M, C]⟩ .f32 :=
  exp (subf L (kTop hr hφ hcol hbc lo hlo L))

theorem kExp_apply (lo : BitVec 32) (hlo : lo = FKind.maximumf.neutral .f32 hφ) (L : FVec Ideal ⟨2, ![M, C]⟩ .f32)
    (p : Fin M) (k : Fin C) :
    kExp hr hφ hcol hbc lo hlo L (ix2 p k) = rowExp (Ideal.ofBits .f32 lo) (fun s => L (ix2 p s)) k := by
  show Ideal.exp (L (ix2 p k) - kTop hr hφ hcol hbc lo hlo L (ix2 p k)) = _
  rw [kTop_apply]
  rfl

/-- The softmax weights. -/
def kSoftmax (lo z : BitVec 32) (hlo : lo = FKind.maximumf.neutral .f32 hφ) (hz : z = FKind.add.neutral .f32 hφ)
    (L : FVec Ideal ⟨2, ![M, C]⟩ .f32) : FVec Ideal ⟨2, ![M, C]⟩ .f32 :=
  divf (kExp hr hφ hcol hbc lo hlo L)
    (broadcastTo ⟨2, ![M, C]⟩ (shapeCast ⟨2, ![M, 1]⟩
      (multiReduction .add [1] ⟨1, ![M]⟩ (kExp hr hφ hcol hbc lo hlo L) z hr hφ hz) hcol) hbc)

theorem kSoftmax_apply (lo z : BitVec 32) (hlo : lo = FKind.maximumf.neutral .f32 hφ) (hz : z = FKind.add.neutral .f32 hφ)
    (L : FVec Ideal ⟨2, ![M, C]⟩ .f32) (p : Fin M) (k : Fin C) :
    kSoftmax hr hφ hcol hbc lo z hlo hz L (ix2 p k) = rowWeight (Ideal.ofBits .f32 lo) (fun s => L (ix2 p s)) k := by
  unfold kSoftmax
  rw [divf_apply, broadcastTo_a1_ab_apply, shapeCast_a_a1_apply, rowSum_apply, kExp_apply]
  unfold rowWeight
  exact congrArg (Ideal.div _) (Finset.sum_congr rfl fun s _ => kExp_apply hr hφ hcol hbc lo hlo L p s)

variable (d1 : DotDims ⟨2, ![M, D]⟩ ⟨2, ![D, C]⟩ ⟨2, ![M, C]⟩) (d2 : DotDims ⟨2, ![M, C]⟩ ⟨2, ![C, D]⟩ ⟨2, ![M, D]⟩)
  (hrow : (⟨1, ![C]⟩ : Shape).ShapeCasts ⟨2, ![1, C]⟩) (hrb : (⟨2, ![1, C]⟩ : Shape).Broadcasts ⟨2, ![M, C]⟩)
  (ht : FTy.bits .bf16 < FTy.bits .f32)

/-- The logits: the product with the weights into a zero accumulator, plus the bias laid out as a row and repeated. -/
def kLogits (e : FVec Ideal ⟨2, ![M, D]⟩ .f32) (W : FVec Ideal ⟨2, ![D, C]⟩ .f32) (b : FVec Ideal ⟨1, ![C]⟩ .f32) :
    FVec Ideal ⟨2, ![M, C]⟩ .f32 :=
  addf (matmul d1 none (truncf .bf16 e ht) (truncf .bf16 W ht) (constant ⟨2, ![M, C]⟩ .f32 0x00000000#32))
    (broadcastTo ⟨2, ![M, C]⟩ (shapeCast ⟨2, ![1, C]⟩ b hrow) hrb)

theorem kLogits_apply (hlc : d1.lhsContracting = [1]) (hrc : d1.rhsContracting = [0]) (hlb : d1.lhsBatch = [])
    (hrbt : d1.rhsBatch = []) (hln : d1.lhsNonContracting = [0]) (hrn : d1.rhsNonContracting = [1])
    (e : FVec Ideal ⟨2, ![M, D]⟩ .f32) (W : FVec Ideal ⟨2, ![D, C]⟩ .f32) (b : FVec Ideal ⟨1, ![C]⟩ .f32)
    (p : Fin M) (k : Fin C) :
    kLogits d1 hrow hrb ht e W b (ix2 p k) = logitRow W b (fun j => e (ix2 p j)) k := by
  unfold kLogits
  rw [addf_apply, broadcastTo_1b_ab_apply, Cert.LibRow.row_apply]
  refine congrArg (· + b (ix1 k)) ?_
  exact Cert.LibPlainDot.matmul_plain_apply d1 hlc hrc hlb hrbt hln hrn none (truncf .bf16 e ht) (truncf .bf16 W ht) p k

/-- The whole body: the row plus `c` times the product of the softmax weights with the table. -/
def kMix (c lo z : BitVec 32) (hlo : lo = FKind.maximumf.neutral .f32 hφ) (hz : z = FKind.add.neutral .f32 hφ)
    (e : FVec Ideal ⟨2, ![M, D]⟩ .f32) (W : FVec Ideal ⟨2, ![D, C]⟩ .f32) (b : FVec Ideal ⟨1, ![C]⟩ .f32)
    (I : FVec Ideal ⟨2, ![C, D]⟩ .f32) : FVec Ideal ⟨2, ![M, D]⟩ .f32 :=
  addf e (mulf (broadcast ⟨2, ![M, D]⟩ (Scalar.ofBits (F := Ideal) .f32 c))
    (matmul d2 none (truncf .bf16 (kSoftmax hr hφ hcol hbc lo z hlo hz (kLogits d1 hrow hrb ht e W b)) ht) (truncf .bf16 I ht)
      (constant ⟨2, ![M, D]⟩ .f32 0x00000000#32)))

theorem kMix_apply (hlc : d1.lhsContracting = [1]) (hrc : d1.rhsContracting = [0]) (hlb : d1.lhsBatch = [])
    (hrbt : d1.rhsBatch = []) (hln : d1.lhsNonContracting = [0]) (hrn : d1.rhsNonContracting = [1])
    (hlc2 : d2.lhsContracting = [1]) (hrc2 : d2.rhsContracting = [0]) (hlb2 : d2.lhsBatch = [])
    (hrbt2 : d2.rhsBatch = []) (hln2 : d2.lhsNonContracting = [0]) (hrn2 : d2.rhsNonContracting = [1])
    (c lo z : BitVec 32) (hlo : lo = FKind.maximumf.neutral .f32 hφ) (hz : z = FKind.add.neutral .f32 hφ)
    (e : FVec Ideal ⟨2, ![M, D]⟩ .f32) (W : FVec Ideal ⟨2, ![D, C]⟩ .f32) (b : FVec Ideal ⟨1, ![C]⟩ .f32)
    (I : FVec Ideal ⟨2, ![C, D]⟩ .f32) (p : Fin M) (q : Fin D) :
    kMix hr hφ hcol hbc d1 d2 hrow hrb ht c lo z hlo hz e W b I (ix2 p q)
      = mixRow (Ideal.ofBits .f32 c) (Ideal.ofBits .f32 lo) W b I (fun j => e (ix2 p j)) q := by
  unfold kMix
  rw [addf_apply, mulf_apply, broadcast_apply]
  unfold mixRow
  refine congrArg (fun t => e (ix2 p q) + Ideal.ofBits .f32 c * t) ?_
  refine (Cert.LibPlainDot.matmul_plain_apply d2 hlc2 hrc2 hlb2 hrbt2 hln2 hrn2 none _ _ p q).trans ?_
  refine Finset.sum_congr rfl fun k _ => ?_
  rw [truncf_apply, truncf_apply, kSoftmax_apply]
  refine congrArg (fun l => rowWeight (Ideal.ofBits .f32 lo) l k * I (ix2 k q)) ?_
  exact funext fun s => kLogits_apply d1 hrow hrb ht hlc hrc hlb hrbt hln hrn e W b p s

end Kernel

/-! ## A host program's spelling -/

section Host

variable (hrt : (⟨2, ![M, C]⟩ : Shape).ReducesTo [1] ⟨1, ![M]⟩)
  (hu : 0 < (⟨0, ![]⟩ : Shape).numel)
  (h0 : (⟨0, ![]⟩ : Shape).BroadcastsInDim ⟨1, ![M]⟩ (![] : Fin 0 → Fin 1))
  (hc1 : (⟨1, ![M]⟩ : Shape).BroadcastsInDim ⟨2, ![M, 1]⟩ (![0] : Fin 1 → Fin 2))
  (hc2 : (⟨2, ![M, 1]⟩ : Shape).BroadcastsInDim ⟨2, ![M, C]⟩ (![0, 1] : Fin 2 → Fin 2))

/-- The rows' shifts, repeated along the rows. -/
def hTop (lo : BitVec 32) (L : FVec Ideal ⟨2, ![M, C]⟩ .f32) : FVec Ideal ⟨2, ![M, C]⟩ .f32 :=
  broadcastInDim ⟨2, ![M, C]⟩ ![0, 1] hc2 (broadcastInDim ⟨2, ![M, 1]⟩ ![0] hc1
    (maximumf (broadcastInDim ⟨1, ![M]⟩ ![] h0 (constant (F := Ideal) ⟨0, ![]⟩ .f32 lo))
      (Host.reduce FloatOps.maximumf L (constant (F := Ideal) ⟨0, ![]⟩ .f32 lo) hrt hu)))

theorem hTop_apply (hr : (⟨2, ![M, C]⟩ : Shape).Reduces [1] ⟨1, ![M]⟩) (lo : BitVec 32) (L : FVec Ideal ⟨2, ![M, C]⟩ .f32) (p : Fin M) (k : Fin C) :
    hTop hrt hu h0 hc1 hc2 lo L (ix2 p k) = rowTop (Ideal.ofBits .f32 lo) (fun s => L (ix2 p s)) := by
  unfold hTop
  rw [Cert.LibGcnLayer.bcastCols_apply, Cert.LibGcnLayer.bcastCol_apply, maximumf_apply, Cert.LibHostDense.bcastScalar_apply,
    hostRowMax_apply L _ hrt hr hu]
  rfl

/-- The shifted exponentials. -/
def hExp (lo : BitVec 32) (L : FVec Ideal ⟨2, ![M, C]⟩ .f32) : FVec Ideal ⟨2, ![M, C]⟩ .f32 :=
  Host.exp (subf L (hTop hrt hu h0 hc1 hc2 lo L))

theorem hExp_apply (hr : (⟨2, ![M, C]⟩ : Shape).Reduces [1] ⟨1, ![M]⟩) (lo : BitVec 32) (L : FVec Ideal ⟨2, ![M, C]⟩ .f32) (p : Fin M) (k : Fin C) :
    hExp hrt hu h0 hc1 hc2 lo L (ix2 p k) = rowExp (Ideal.ofBits .f32 lo) (fun s => L (ix2 p s)) k := by
  show Ideal.exp (L (ix2 p k) - hTop hrt hu h0 hc1 hc2 lo L (ix2 p k)) = _
  rw [hTop_apply hrt hu h0 hc1 hc2 hr]
  rfl

/-- The softmax weights. -/
def hSoftmax (lo z : BitVec 32) (L : FVec Ideal ⟨2, ![M, C]⟩ .f32) : FVec Ideal ⟨2, ![M, C]⟩ .f32 :=
  Host.divf (hExp hrt hu h0 hc1 hc2 lo L)
    (broadcastInDim ⟨2, ![M, C]⟩ ![0, 1] hc2 (broadcastInDim ⟨2, ![M, 1]⟩ ![0] hc1
      (Host.reduceAdd (hExp hrt hu h0 hc1 hc2 lo L) (constant (F := Ideal) ⟨0, ![]⟩ .f32 z) hrt hu)))

theorem hSoftmax_apply (hr : (⟨2, ![M, C]⟩ : Shape).Reduces [1] ⟨1, ![M]⟩) (lo : BitVec 32) (L : FVec Ideal ⟨2, ![M, C]⟩ .f32) (p : Fin M) (k : Fin C) :
    hSoftmax hrt hu h0 hc1 hc2 lo 0x00000000#32 L (ix2 p k) = rowWeight (Ideal.ofBits .f32 lo) (fun s => L (ix2 p s)) k := by
  unfold hSoftmax
  show Ideal.div (hExp hrt hu h0 hc1 hc2 lo L (ix2 p k)) _ = _
  rw [Cert.LibGcnLayer.bcastCols_apply, Cert.LibGcnLayer.bcastCol_apply, hostRowSum_apply _ _ hrt hr hu, constant_apply,
    Ideal.ofBits_zero_f32, zero_add, hExp_apply hrt hu h0 hc1 hc2 hr]
  unfold rowWeight
  exact congrArg (Ideal.div _) (Finset.sum_congr rfl fun s _ => hExp_apply hrt hu h0 hc1 hc2 hr lo L p s)

variable (d1 : DotDims ⟨2, ![M, D]⟩ ⟨2, ![D, C]⟩ ⟨2, ![M, C]⟩) (d2 : DotDims ⟨2, ![M, C]⟩ ⟨2, ![C, D]⟩ ⟨2, ![M, D]⟩)
  (hb1 : (⟨1, ![C]⟩ : Shape).BroadcastsInDim ⟨2, ![1, C]⟩ (![1] : Fin 1 → Fin 2))
  (hb2 : (⟨2, ![1, C]⟩ : Shape).BroadcastsInDim ⟨2, ![M, C]⟩ (![0, 1] : Fin 2 → Fin 2))
  (hs : (⟨0, ![]⟩ : Shape).BroadcastsInDim ⟨2, ![M, D]⟩ (![] : Fin 0 → Fin 2))

/-- The logits: the product with the weights plus the bias laid out as a row and repeated over the rows. -/
def hLogits (e : FVec Ideal ⟨2, ![M, D]⟩ .f32) (W : FVec Ideal ⟨2, ![D, C]⟩ .f32) (b : FVec Ideal ⟨1, ![C]⟩ .f32) :
    FVec Ideal ⟨2, ![M, C]⟩ .f32 :=
  addf (Host.dotGeneral d1 none e W) (broadcastInDim ⟨2, ![M, C]⟩ ![0, 1] hb2 (broadcastInDim ⟨2, ![1, C]⟩ ![1] hb1 b))

theorem hLogits_apply (hlc : d1.lhsContracting = [1]) (hrc : d1.rhsContracting = [0]) (hlb : d1.lhsBatch = [])
    (hrbt : d1.rhsBatch = []) (hln : d1.lhsNonContracting = [0]) (hrn : d1.rhsNonContracting = [1])
    (e : FVec Ideal ⟨2, ![M, D]⟩ .f32) (W : FVec Ideal ⟨2, ![D, C]⟩ .f32) (b : FVec Ideal ⟨1, ![C]⟩ .f32)
    (p : Fin M) (k : Fin C) :
    hLogits d1 hb1 hb2 e W b (ix2 p k) = logitRow W b (fun j => e (ix2 p j)) k := by
  unfold hLogits
  rw [addf_apply, Cert.LibGcnLayer.bcastRowRows_apply, Cert.LibHostDense.hostDot_plain_apply d1 hlc hrc hlb hrbt hln hrn]
  rfl

/-- The whole layer: the array plus `c` times the product of the softmax weights with the table. -/
def hMix (c lo z : BitVec 32) (e : FVec Ideal ⟨2, ![M, D]⟩ .f32) (W : FVec Ideal ⟨2, ![D, C]⟩ .f32)
    (b : FVec Ideal ⟨1, ![C]⟩ .f32) (I : FVec Ideal ⟨2, ![C, D]⟩ .f32) : FVec Ideal ⟨2, ![M, D]⟩ .f32 :=
  addf e (mulf (broadcastInDim ⟨2, ![M, D]⟩ ![] hs (constant (F := Ideal) ⟨0, ![]⟩ .f32 c))
    (Host.dotGeneral d2 none (hSoftmax hrt hu h0 hc1 hc2 lo z (hLogits d1 hb1 hb2 e W b)) I))

theorem hMix_apply (hlc : d1.lhsContracting = [1]) (hrc : d1.rhsContracting = [0]) (hlb : d1.lhsBatch = [])
    (hrbt : d1.rhsBatch = []) (hln : d1.lhsNonContracting = [0]) (hrn : d1.rhsNonContracting = [1])
    (hlc2 : d2.lhsContracting = [1]) (hrc2 : d2.rhsContracting = [0]) (hlb2 : d2.lhsBatch = [])
    (hrbt2 : d2.rhsBatch = []) (hln2 : d2.lhsNonContracting = [0]) (hrn2 : d2.rhsNonContracting = [1])
    (hr : (⟨2, ![M, C]⟩ : Shape).Reduces [1] ⟨1, ![M]⟩)
    (c lo : BitVec 32) (e : FVec Ideal ⟨2, ![M, D]⟩ .f32) (W : FVec Ideal ⟨2, ![D, C]⟩ .f32)
    (b : FVec Ideal ⟨1, ![C]⟩ .f32) (I : FVec Ideal ⟨2, ![C, D]⟩ .f32) (p : Fin M) (q : Fin D) :
    hMix hrt hu h0 hc1 hc2 d1 d2 hb1 hb2 hs c lo 0x00000000#32 e W b I (ix2 p q)
      = mixRow (Ideal.ofBits .f32 c) (Ideal.ofBits .f32 lo) W b I (fun j => e (ix2 p j)) q := by
  unfold hMix
  rw [addf_apply, mulf_apply, Cert.LibHostDense.bcastScalar_apply, constant_apply]
  unfold mixRow
  refine congrArg (fun t => e (ix2 p q) + Ideal.ofBits .f32 c * t) ?_
  refine (Cert.LibHostDense.hostDot_plain_apply d2 hlc2 hrc2 hlb2 hrbt2 hln2 hrn2 none _ _ p q).trans ?_
  refine Finset.sum_congr rfl fun k _ => ?_
  rw [hSoftmax_apply hrt hu h0 hc1 hc2 hr]
  refine congrArg (fun l => rowWeight (Ideal.ofBits .f32 lo) l k * I (ix2 k q)) ?_
  exact funext fun s => hLogits_apply d1 hb1 hb2 hlc hrc hlb hrbt hln hrn e W b p s

end Host

/-! ## The whole array -/

/-- Every row of the array moved towards its mix: entry `(p, q)` is `mixRow` of row `p` at `q`. -/
def mixArr (c lo : EReal) (W : FVec Ideal ⟨2, ![D, C]⟩ .f32) (b : FVec Ideal ⟨1, ![C]⟩ .f32) (I : FVec Ideal ⟨2, ![C, D]⟩ .f32)
    (e : FVec Ideal ⟨2, ![M, D]⟩ .f32) : FVec Ideal ⟨2, ![M, D]⟩ .f32 :=
  fun i => mixRow c lo W b I (fun j => e (ix2 (i 0) j)) (i 1)

theorem mixArr_apply (c lo : EReal) (W : FVec Ideal ⟨2, ![D, C]⟩ .f32) (b : FVec Ideal ⟨1, ![C]⟩ .f32)
    (I : FVec Ideal ⟨2, ![C, D]⟩ .f32) (e : FVec Ideal ⟨2, ![M, D]⟩ .f32) (p : Fin M) (q : Fin D) :
    mixArr c lo W b I e (ix2 p q) = mixRow c lo W b I (fun j => e (ix2 p j)) q := rfl

/-- Entry `(p, q)` of the mix reads row `p` of the array only: two arrays, of any numbers of rows, that agree on a row
    have the same mix along it. -/
theorem mixArr_congr_row {M' : ℕ} (c lo : EReal) (W : FVec Ideal ⟨2, ![D, C]⟩ .f32) (b : FVec Ideal ⟨1, ![C]⟩ .f32)
    (I : FVec Ideal ⟨2, ![C, D]⟩ .f32) (e : FVec Ideal ⟨2, ![M, D]⟩ .f32) (e' : FVec Ideal ⟨2, ![M', D]⟩ .f32)
    (p : Fin M) (p' : Fin M') (q : Fin D) (h : ∀ j : Fin D, e (ix2 p j) = e' (ix2 p' j)) :
    mixArr c lo W b I e (ix2 p q) = mixArr c lo W b I e' (ix2 p' q) := by
  rw [mixArr_apply, mixArr_apply, show (fun j => e (ix2 p j)) = fun j => e' (ix2 p' j) from funext h]

/-- The kernel body's spelling is the mix, as whole arrays. -/
theorem kMix_eq (hr : (⟨2, ![M, C]⟩ : Shape).Reduces [1] ⟨1, ![M]⟩) (hφ : FKind.Formats .f32)
    (hcol : (⟨1, ![M]⟩ : Shape).ShapeCasts ⟨2, ![M, 1]⟩) (hbc : (⟨2, ![M, 1]⟩ : Shape).Broadcasts ⟨2, ![M, C]⟩)
    (d1 : DotDims ⟨2, ![M, D]⟩ ⟨2, ![D, C]⟩ ⟨2, ![M, C]⟩) (d2 : DotDims ⟨2, ![M, C]⟩ ⟨2, ![C, D]⟩ ⟨2, ![M, D]⟩)
    (hrow : (⟨1, ![C]⟩ : Shape).ShapeCasts ⟨2, ![1, C]⟩) (hrb : (⟨2, ![1, C]⟩ : Shape).Broadcasts ⟨2, ![M, C]⟩)
    (ht : FTy.bits .bf16 < FTy.bits .f32)
    (hlc : d1.lhsContracting = [1]) (hrc : d1.rhsContracting = [0]) (hlb : d1.lhsBatch = [])
    (hrbt : d1.rhsBatch = []) (hln : d1.lhsNonContracting = [0]) (hrn : d1.rhsNonContracting = [1])
    (hlc2 : d2.lhsContracting = [1]) (hrc2 : d2.rhsContracting = [0]) (hlb2 : d2.lhsBatch = [])
    (hrbt2 : d2.rhsBatch = []) (hln2 : d2.lhsNonContracting = [0]) (hrn2 : d2.rhsNonContracting = [1])
    (c lo z : BitVec 32) (hlo : lo = FKind.maximumf.neutral .f32 hφ) (hz : z = FKind.add.neutral .f32 hφ)
    (e : FVec Ideal ⟨2, ![M, D]⟩ .f32) (W : FVec Ideal ⟨2, ![D, C]⟩ .f32) (b : FVec Ideal ⟨1, ![C]⟩ .f32)
    (I : FVec Ideal ⟨2, ![C, D]⟩ .f32) :
    kMix hr hφ hcol hbc d1 d2 hrow hrb ht c lo z hlo hz e W b I
      = mixArr (Ideal.ofBits .f32 c) (Ideal.ofBits .f32 lo) W b I e := by
  funext i
  obtain ⟨p, q, rfl⟩ : ∃ (p : Fin M) (q : Fin D), i = ix2 p q := ⟨i 0, i 1, eq_ix2 i⟩
  exact kMix_apply hr hφ hcol hbc d1 d2 hrow hrb ht hlc hrc hlb hrbt hln hrn hlc2 hrc2 hlb2 hrbt2 hln2 hrn2 c lo z hlo hz e W b I p q

/-- The host program's spelling is the mix, as whole arrays. -/
theorem hMix_eq (hrt : (⟨2, ![M, C]⟩ : Shape).ReducesTo [1] ⟨1, ![M]⟩) (hu : 0 < (⟨0, ![]⟩ : Shape).numel)
    (h0 : (⟨0, ![]⟩ : Shape).BroadcastsInDim ⟨1, ![M]⟩ (![] : Fin 0 → Fin 1))
    (hc1 : (⟨1, ![M]⟩ : Shape).BroadcastsInDim ⟨2, ![M, 1]⟩ (![0] : Fin 1 → Fin 2))
    (hc2 : (⟨2, ![M, 1]⟩ : Shape).BroadcastsInDim ⟨2, ![M, C]⟩ (![0, 1] : Fin 2 → Fin 2))
    (d1 : DotDims ⟨2, ![M, D]⟩ ⟨2, ![D, C]⟩ ⟨2, ![M, C]⟩) (d2 : DotDims ⟨2, ![M, C]⟩ ⟨2, ![C, D]⟩ ⟨2, ![M, D]⟩)
    (hb1 : (⟨1, ![C]⟩ : Shape).BroadcastsInDim ⟨2, ![1, C]⟩ (![1] : Fin 1 → Fin 2))
    (hb2 : (⟨2, ![1, C]⟩ : Shape).BroadcastsInDim ⟨2, ![M, C]⟩ (![0, 1] : Fin 2 → Fin 2))
    (hs : (⟨0, ![]⟩ : Shape).BroadcastsInDim ⟨2, ![M, D]⟩ (![] : Fin 0 → Fin 2))
    (hlc : d1.lhsContracting = [1]) (hrc : d1.rhsContracting = [0]) (hlb : d1.lhsBatch = [])
    (hrbt : d1.rhsBatch = []) (hln : d1.lhsNonContracting = [0]) (hrn : d1.rhsNonContracting = [1])
    (hlc2 : d2.lhsContracting = [1]) (hrc2 : d2.rhsContracting = [0]) (hlb2 : d2.lhsBatch = [])
    (hrbt2 : d2.rhsBatch = []) (hln2 : d2.lhsNonContracting = [0]) (hrn2 : d2.rhsNonContracting = [1])
    (hr : (⟨2, ![M, C]⟩ : Shape).Reduces [1] ⟨1, ![M]⟩)
    (c lo : BitVec 32) (e : FVec Ideal ⟨2, ![M, D]⟩ .f32) (W : FVec Ideal ⟨2, ![D, C]⟩ .f32)
    (b : FVec Ideal ⟨1, ![C]⟩ .f32) (I : FVec Ideal ⟨2, ![C, D]⟩ .f32) :
    hMix hrt hu h0 hc1 hc2 d1 d2 hb1 hb2 hs c lo 0x00000000#32 e W b I
      = mixArr (Ideal.ofBits .f32 c) (Ideal.ofBits .f32 lo) W b I e := by
  funext i
  obtain ⟨p, q, rfl⟩ : ∃ (p : Fin M) (q : Fin D), i = ix2 p q := ⟨i 0, i 1, eq_ix2 i⟩
  exact hMix_apply hrt hu h0 hc1 hc2 d1 d2 hb1 hb2 hs hlc hrc hlb hrbt hln hrn hlc2 hrc2 hlb2 hrbt2 hln2 hrn2 hr c lo e W b I p q

end Cert.LibSoftmaxMix

end
-- ==== Proof.KernelArrays.lean ====
/-
  What each of the three pallas regions leaves in its output array, as one function of the arrays the region finds.

  A region works block by block: at point t it is handed block t of each windowed operand, computes, and writes block t
  of the output back. For the two fusion regions the row window and the output move together down the table, 5000 rows
  at a time, while the weights, the bias and the intent table are handed over whole; the body computes the mix of each of
  its rows, which reads that row alone, so block t of the output is block t of the mix of the whole table. For the
  averaging region all five windows move together, 6000 rows at a time, and the body is entry by entry. In each case the
  blocks tile the output, so the output ends holding the whole-array function.
-/
import proofs.«118412_j20684562498310_1_alg».proof.Proof.Gen.KernelIdeal.Frame
import proofs.«118412_j20684562498310_1_alg».proof.Proof.LibSoftmaxMix
import Idealize.ShloMosaic.Lib.Pipeline.Value

set_option maxRecDepth 16384

noncomputable section

namespace Cert.KernelIdeal.Arrays

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.LibSoftmaxMix

/-- The f32 word of one half, the fusion's step. -/
abbrev half : EReal := Ideal.ofBits .f32 0x3F000000#32
/-- The f32 word of minus infinity, from which a row's largest logit is taken. -/
abbrev negInf : EReal := Ideal.ofBits .f32 0xFF800000#32
/-- The f32 word of one quarter. -/
abbrev quarter : EReal := Ideal.ofBits .f32 0x3E800000#32

theorem hz2 : (![0, 0] : Fin 2 → Nat) = fun _ => 0 := funext fun a => by fin_cases a <;> rfl
theorem hz1 : (![0] : Fin 1 → Nat) = fun _ => 0 := funext fun a => by fin_cases a; rfl

/-- The mix at an entry of a block is the mix at the entry of the table whose row the block's row is. -/
theorem row_point {M M' : ℕ} (W : FVec Ideal ⟨2, ![64, 4]⟩ .f32) (b : FVec Ideal ⟨1, ![4]⟩ .f32) (I : FVec Ideal ⟨2, ![4, 64]⟩ .f32)
    (x : FVec Ideal ⟨2, ![M, 64]⟩ .f32) (a : FVec Ideal ⟨2, ![M', 64]⟩ .f32)
    (y : (⟨2, ![M, 64]⟩ : Shape).Idx) (i : (⟨2, ![M', 64]⟩ : Shape).Idx)
    (hrow : ∀ j : Fin 64, x (ix2 (y 0) j) = a (ix2 (i 0) j)) (hcol : (y 1).val = (i 1).val) :
    mixArr half negInf W b I x y = mixArr half negInf W b I a i := by
  rw [eq_ix2 y, eq_ix2 i, show (i 1) = (y 1) from Fin.ext hcol.symm]
  exact mixArr_congr_row half negInf W b I x a (y 0) (i 0) (y 1) hrow

variable (V : (c : Dev nD) → (b : Ref sig .tc) → Buf (Elt Ideal) ((c : Thread nD τ).loc b))

/-! ## Region 0: the fusion of the 100000-row embedding table, in 20 blocks of 5000 rows -/

/-- The body's value on one block is the mix of the block's rows. -/
theorem pay0_eq (x0 : Vec Ideal S5000x64 .f32) (x1 : Vec Ideal S64x4 .f32) (x2 : Vec Ideal S4 .f32) (x3 : Vec Ideal S4x64 .f32) :
    k0_pay1 (F := Ideal) x0 x1 x2 x3 = mixArr half negInf x1 x2 x3 x0 :=
  (show k0_pay1 (F := Ideal) x0 x1 x2 x3 = kMix reduces_S5000x4_S5000 (.inl rfl) shapeCasts_S5000_S5000x1 broadcasts_S5000x1_S5000x4
      dot_S5000x64_S64x4_S5000x4_1_0_0_1_n_n dot_S5000x4_S4x64_S5000x64_1_0_0_1_n_n shapeCasts_S4_S1x4 broadcasts_S1x4_S5000x4 bitsLt_bf16_f32
      0x3F000000#32 0xFF800000#32 0x00000000#32 rfl rfl x0 x1 x2 x3 from rfl).trans
    (kMix_eq reduces_S5000x4_S5000 (.inl rfl) shapeCasts_S5000_S5000x1 broadcasts_S5000x1_S5000x4
      dot_S5000x64_S64x4_S5000x4_1_0_0_1_n_n dot_S5000x4_S4x64_S5000x64_1_0_0_1_n_n shapeCasts_S4_S1x4 broadcasts_S1x4_S5000x4 bitsLt_bf16_f32
      rfl rfl rfl rfl rfl rfl rfl rfl rfl rfl rfl rfl 0x3F000000#32 0xFF800000#32 0x00000000#32 rfl rfl x0 x1 x2 x3)

/-- The printed index maps over the grid: the row window and the output window sit at block row `t` and block column 0; the
    weights, the bias and the table are whole-array windows at block 0. -/
theorem idx0 : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- Every block row of the output is some point's. -/
theorem onto0 : ∀ q0 : Fin 20, ∃ t : Fin cfg0.N, win0_4.index t = ![q0.val, 0] :=
  (by decide +kernel : ∀ q0 : Fin 20, ∃ t : Fin grid0.N, win0_4.index t = ![q0.val, 0])

/-- What point `t` writes back is block `t` of the mix of the whole table. -/
theorem flushed0 (c : Dev nD) (t : Fin cfg0.N) :
    (dat0 V c).flushed 4 t = ((cfg0.win 4).blk t).view.read (Elt Ideal)
      (mixArr half negInf (V c main_arg4) (V c main_arg5) (V c main_arg2) (V c main_arg0)) := by
  show (cfg0.win 4).cut (grid0.coords t) ((dat0 V c).after 4 t) = _
  rw [after0_4]
  unfold out0_4
  rw [View.canon_unit_zero hz2]
  simp only [View.ld_unit_zero (S := S5000x64) hz2, View.ld_unit_zero (S := S64x4) hz2, View.ld_unit_zero (S := S4) hz1,
    View.ld_unit_zero (S := S4x64) hz2]
  rw [pay0_eq]
  obtain ⟨e0, e1, e2, e3, e4, e5, e6, e7⟩ := idx0 t
  have hW : iblk0 V c 1 t = V c main_arg4 := by
    funext y
    show V c main_arg4 (((cfg0.win 1).blk t).view.emb y) = V c main_arg4 y
    refine congrArg (V c main_arg4) (funext fun a => Fin.ext ?_)
    match a with
    | ⟨0, _⟩ => show win0_1.index t (0 : Fin 2) * 64 + 1 * (y 0).val = (y 0).val; omega
    | ⟨1, _⟩ => show win0_1.index t (1 : Fin 2) * 4 + 1 * (y 1).val = (y 1).val; omega
  have hb : iblk0 V c 2 t = V c main_arg5 := by
    funext y
    show V c main_arg5 (((cfg0.win 2).blk t).view.emb y) = V c main_arg5 y
    refine congrArg (V c main_arg5) (funext fun a => Fin.ext ?_)
    match a with
    | ⟨0, _⟩ => show win0_2.index t (0 : Fin 1) * 4 + 1 * (y 0).val = (y 0).val; omega
  have hI : iblk0 V c 3 t = V c main_arg2 := by
    funext y
    show V c main_arg2 (((cfg0.win 3).blk t).view.emb y) = V c main_arg2 y
    refine congrArg (V c main_arg2) (funext fun a => Fin.ext ?_)
    match a with
    | ⟨0, _⟩ => show win0_3.index t (0 : Fin 2) * 4 + 1 * (y 0).val = (y 0).val; omega
    | ⟨1, _⟩ => show win0_3.index t (1 : Fin 2) * 64 + 1 * (y 1).val = (y 1).val; omega
  rw [hW, hb, hI]
  funext y
  show mixArr half negInf (V c main_arg4) (V c main_arg5) (V c main_arg2) (iblk0 V c 0 t) y
    = mixArr half negInf (V c main_arg4) (V c main_arg5) (V c main_arg2) (V c main_arg0) (((cfg0.win 4).blk t).view.emb y)
  exact row_point (V c main_arg4) (V c main_arg5) (V c main_arg2) (iblk0 V c 0 t) (V c main_arg0) y (((cfg0.win 4).blk t).view.emb y)
    (fun j => by
      show V c main_arg0 (((cfg0.win 0).blk t).view.emb (ix2 (y 0) j)) = V c main_arg0 (ix2 ((((cfg0.win 4).blk t).view.emb y) 0) j)
      refine congrArg (V c main_arg0) (funext fun a => Fin.ext ?_)
      match a with
      | ⟨0, _⟩ => show win0_0.index t (0 : Fin 2) * 5000 + 1 * (y 0).val = win0_4.index t (0 : Fin 2) * 5000 + 1 * (y 0).val; omega
      | ⟨1, _⟩ => show win0_0.index t (1 : Fin 2) * 64 + 1 * j.val = j.val; omega)
    (by show (y 1).val = win0_4.index t (1 : Fin 2) * 64 + 1 * (y 1).val; omega)

/-- An index of the array is in point `t`'s block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0).slice (win0_4.rect t)).set ↔ _
  rw [View.set_slice_whole, Rect.mem_set_unit]
  exact Iff.rfl

/-- Every index of the array is in the block of the point whose number is its row divided by 5000. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The array the region leaves: the mix of the whole table, as the region found its operands. -/
theorem final0 (c : Dev nD) : (dat0 V c).arrAt 4 cfg0.N
    = mixArr half negInf (V c main_arg4) (V c main_arg5) (V c main_arg2) (V c main_arg0) :=
  (dat0 V c).arrAt_eq_of_cover 4 _ (fun t _ => flushed0 V c t) (cover0)

/-! ## Region 1: the fusion of the 50000-row embedding table, in 10 blocks of 5000 rows -/

/-- The body's value on one block is the mix of the block's rows. -/
theorem pay1_eq (x0 : Vec Ideal S5000x64 .f32) (x1 : Vec Ideal S64x4 .f32) (x2 : Vec Ideal S4 .f32) (x3 : Vec Ideal S4x64 .f32) :
    k1_pay1 (F := Ideal) x0 x1 x2 x3 = mixArr half negInf x1 x2 x3 x0 :=
  (show k1_pay1 (F := Ideal) x0 x1 x2 x3 = kMix reduces_S5000x4_S5000 (.inl rfl) shapeCasts_S5000_S5000x1 broadcasts_S5000x1_S5000x4
      dot_S5000x64_S64x4_S5000x4_1_0_0_1_n_n dot_S5000x4_S4x64_S5000x64_1_0_0_1_n_n shapeCasts_S4_S1x4 broadcasts_S1x4_S5000x4 bitsLt_bf16_f32
      0x3F000000#32 0xFF800000#32 0x00000000#32 rfl rfl x0 x1 x2 x3 from rfl).trans
    (kMix_eq reduces_S5000x4_S5000 (.inl rfl) shapeCasts_S5000_S5000x1 broadcasts_S5000x1_S5000x4
      dot_S5000x64_S64x4_S5000x4_1_0_0_1_n_n dot_S5000x4_S4x64_S5000x64_1_0_0_1_n_n shapeCasts_S4_S1x4 broadcasts_S1x4_S5000x4 bitsLt_bf16_f32
      rfl rfl rfl rfl rfl rfl rfl rfl rfl rfl rfl rfl 0x3F000000#32 0xFF800000#32 0x00000000#32 rfl rfl x0 x1 x2 x3)

/-- The printed index maps over the grid: the row window and the output window sit at block row `t` and block column 0; the
    weights, the bias and the table are whole-array windows at block 0. -/
theorem idx1 : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

/-- Every block row of the output is some point's. -/
theorem onto1 : ∀ q0 : Fin 10, ∃ t : Fin cfg1.N, win1_4.index t = ![q0.val, 0] :=
  (by decide +kernel : ∀ q0 : Fin 10, ∃ t : Fin grid1.N, win1_4.index t = ![q0.val, 0])

/-- What point `t` writes back is block `t` of the mix of the whole table. -/
theorem flushed1 (c : Dev nD) (t : Fin cfg1.N) :
    (dat1 V c).flushed 4 t = ((cfg1.win 4).blk t).view.read (Elt Ideal)
      (mixArr half negInf (V c main_arg6) (V c main_arg7) (V c main_arg3) (V c main_arg1)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S64x4) hz2, View.ld_unit_zero (S := S4) hz1,
    View.ld_unit_zero (S := S4x64) hz2]
  rw [pay1_eq]
  obtain ⟨e0, e1, e2, e3, e4, e5, e6, e7⟩ := idx1 t
  have hW : iblk1 V c 1 t = V c main_arg6 := by
    funext y
    show V c main_arg6 (((cfg1.win 1).blk t).view.emb y) = V c main_arg6 y
    refine congrArg (V c main_arg6) (funext fun a => Fin.ext ?_)
    match a with
    | ⟨0, _⟩ => show win1_1.index t (0 : Fin 2) * 64 + 1 * (y 0).val = (y 0).val; omega
    | ⟨1, _⟩ => show win1_1.index t (1 : Fin 2) * 4 + 1 * (y 1).val = (y 1).val; omega
  have hb : iblk1 V c 2 t = V c main_arg7 := by
    funext y
    show V c main_arg7 (((cfg1.win 2).blk t).view.emb y) = V c main_arg7 y
    refine congrArg (V c main_arg7) (funext fun a => Fin.ext ?_)
    match a with
    | ⟨0, _⟩ => show win1_2.index t (0 : Fin 1) * 4 + 1 * (y 0).val = (y 0).val; omega
  have hI : iblk1 V c 3 t = V c main_arg3 := by
    funext y
    show V c main_arg3 (((cfg1.win 3).blk t).view.emb y) = V c main_arg3 y
    refine congrArg (V c main_arg3) (funext fun a => Fin.ext ?_)
    match a with
    | ⟨0, _⟩ => show win1_3.index t (0 : Fin 2) * 4 + 1 * (y 0).val = (y 0).val; omega
    | ⟨1, _⟩ => show win1_3.index t (1 : Fin 2) * 64 + 1 * (y 1).val = (y 1).val; omega
  rw [hW, hb, hI]
  funext y
  show mixArr half negInf (V c main_arg6) (V c main_arg7) (V c main_arg3) (iblk1 V c 0 t) y
    = mixArr half negInf (V c main_arg6) (V c main_arg7) (V c main_arg3) (V c main_arg1) (((cfg1.win 4).blk t).view.emb y)
  exact row_point (V c main_arg6) (V c main_arg7) (V c main_arg3) (iblk1 V c 0 t) (V c main_arg1) y (((cfg1.win 4).blk t).view.emb y)
    (fun j => by
      show V c main_arg1 (((cfg1.win 0).blk t).view.emb (ix2 (y 0) j)) = V c main_arg1 (ix2 ((((cfg1.win 4).blk t).view.emb y) 0) j)
      refine congrArg (V c main_arg1) (funext fun a => Fin.ext ?_)
      match a with
      | ⟨0, _⟩ => show win1_0.index t (0 : Fin 2) * 5000 + 1 * (y 0).val = win1_4.index t (0 : Fin 2) * 5000 + 1 * (y 0).val; omega
      | ⟨1, _⟩ => show win1_0.index t (1 : Fin 2) * 64 + 1 * j.val = j.val; omega)
    (by show (y 1).val = win1_4.index t (1 : Fin 2) * 64 + 1 * (y 1).val; omega)

/-- An index of the array is in point `t`'s block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v1).slice (win1_4.rect t)).set ↔ _
  rw [View.set_slice_whole, Rect.mem_set_unit]
  exact Iff.rfl

/-- Every index of the array is in the block of the point whose number is its row divided by 5000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array the region leaves: the mix of the whole table, as the region found its operands. -/
theorem final1 (c : Dev nD) : (dat1 V c).arrAt 4 cfg1.N
    = mixArr half negInf (V c main_arg6) (V c main_arg7) (V c main_arg3) (V c main_arg1) :=
  (dat1 V c).arrAt_eq_of_cover 4 _ (fun t _ => flushed1 V c t) (cover1)

/-! ## Region 2: the average of the four node-state arrays, in 25 blocks of 6000 rows -/

/-- A quarter of the sum of four arrays, entry by entry, summed in the order given. -/
def avg4 {s : Shape} (x0 x1 x2 x3 : s.Idx → EReal) : s.Idx → EReal :=
  fun i => (((x0 i + x1 i) + x2 i) + x3 i) * quarter

/-- The average at an entry depends on the four entries there. -/
theorem avg4_point {s s' : Shape} (x0 x1 x2 x3 : s.Idx → EReal) (a0 a1 a2 a3 : s'.Idx → EReal) (y : s.Idx) (i : s'.Idx)
    (h0 : x0 y = a0 i) (h1 : x1 y = a1 i) (h2 : x2 y = a2 i) (h3 : x3 y = a3 i) :
    avg4 x0 x1 x2 x3 y = avg4 a0 a1 a2 a3 i := by
  unfold avg4; rw [h0, h1, h2, h3]

/-- The body's value on one block is the average of the four blocks. -/
theorem pay2_eq (x0 x1 x2 x3 : Vec Ideal S6000x64 .f32) : k2_pay1 (F := Ideal) x0 x1 x2 x3 = avg4 x0 x1 x2 x3 := by
  unfold k2_pay1
  simp only [shapeCast_self]
  rfl

/-- The printed index maps over the grid: the five windows sit at the same block. -/
theorem idx2 : ∀ t : Fin cfg2.N, win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = win2_4.index t (0 : Fin 2) ∧ win2_2.index t (1 : Fin 2) = win2_4.index t (1 : Fin 2)
    ∧ win2_3.index t (0 : Fin 2) = win2_4.index t (0 : Fin 2) ∧ win2_3.index t (1 : Fin 2) = win2_4.index t (1 : Fin 2) :=
  (by decide +kernel : ∀ t : Fin grid2.N, _)

theorem onto2 : ∀ q0 : Fin 25, ∃ t : Fin cfg2.N, win2_4.index t = ![q0.val, 0] :=
  (by decide +kernel : ∀ q0 : Fin 25, ∃ t : Fin grid2.N, win2_4.index t = ![q0.val, 0])

/-- What point `t` writes back is block `t` of the average of the four arrays. -/
theorem flushed2 (c : Dev nD) (t : Fin cfg2.N) :
    (dat2 V c).flushed 4 t = ((cfg2.win 4).blk t).view.read (Elt Ideal)
      (avg4 (V c main_v2) (V c main_v15) (V c main_v28) (V c main_v41)) := by
  show (cfg2.win 4).cut (grid2.coords t) ((dat2 V c).after 4 t) = _
  rw [after2_4]
  unfold out2_4
  rw [View.canon_unit_zero hz2]
  simp only [View.ld_unit_zero (S := S6000x64) hz2]
  rw [pay2_eq]
  obtain ⟨e0, e1, e2, e3, e4, e5, e6, e7⟩ := idx2 t
  funext y
  have h0 : ((cfg2.win 0).blk t).view.emb y = ((cfg2.win 4).blk t).view.emb y := by
    funext a; apply Fin.ext
    match a with
    | ⟨0, _⟩ => show win2_0.index t (0 : Fin 2) * 6000 + 1 * (y 0).val = win2_4.index t (0 : Fin 2) * 6000 + 1 * (y 0).val; omega
    | ⟨1, _⟩ => show win2_0.index t (1 : Fin 2) * 64 + 1 * (y 1).val = win2_4.index t (1 : Fin 2) * 64 + 1 * (y 1).val; omega
  have h1 : ((cfg2.win 1).blk t).view.emb y = ((cfg2.win 4).blk t).view.emb y := by
    funext a; apply Fin.ext
    match a with
    | ⟨0, _⟩ => show win2_1.index t (0 : Fin 2) * 6000 + 1 * (y 0).val = win2_4.index t (0 : Fin 2) * 6000 + 1 * (y 0).val; omega
    | ⟨1, _⟩ => show win2_1.index t (1 : Fin 2) * 64 + 1 * (y 1).val = win2_4.index t (1 : Fin 2) * 64 + 1 * (y 1).val; omega
  have h2 : ((cfg2.win 2).blk t).view.emb y = ((cfg2.win 4).blk t).view.emb y := by
    funext a; apply Fin.ext
    match a with
    | ⟨0, _⟩ => show win2_2.index t (0 : Fin 2) * 6000 + 1 * (y 0).val = win2_4.index t (0 : Fin 2) * 6000 + 1 * (y 0).val; omega
    | ⟨1, _⟩ => show win2_2.index t (1 : Fin 2) * 64 + 1 * (y 1).val = win2_4.index t (1 : Fin 2) * 64 + 1 * (y 1).val; omega
  have h3 : ((cfg2.win 3).blk t).view.emb y = ((cfg2.win 4).blk t).view.emb y := by
    funext a; apply Fin.ext
    match a with
    | ⟨0, _⟩ => show win2_3.index t (0 : Fin 2) * 6000 + 1 * (y 0).val = win2_4.index t (0 : Fin 2) * 6000 + 1 * (y 0).val; omega
    | ⟨1, _⟩ => show win2_3.index t (1 : Fin 2) * 64 + 1 * (y 1).val = win2_4.index t (1 : Fin 2) * 64 + 1 * (y 1).val; omega
  exact avg4_point (iblk2 V c 0 t) (iblk2 V c 1 t) (iblk2 V c 2 t) (iblk2 V c 3 t)
    (V c main_v2) (V c main_v15) (V c main_v28) (V c main_v41) y (((cfg2.win 4).blk t).view.emb y)
    (congrArg (V c main_v2) h0) (congrArg (V c main_v15) h1) (congrArg (V c main_v28) h2) (congrArg (V c main_v41) h3)

theorem mem_blk2 (t : Fin cfg2.N) (i : S150000x64.Idx) :
    i ∈ ((cfg2.win 4).blk t).view.set ↔ ∀ a : Fin 2, win2_4.index t a * S6000x64.size a ≤ (i a).val ∧ (i a).val < win2_4.index t a * S6000x64.size a + S6000x64.size a := by
  show i ∈ ((View.whole main_v42).slice (win2_4.rect t)).set ↔ _
  rw [View.set_slice_whole, Rect.mem_set_unit]
  exact Iff.rfl

theorem cover2 (i : S150000x64.Idx) : ∃ t : Fin cfg2.N, (cfg2.win 4).flush t = true ∧ i ∈ ((cfg2.win 4).blk t).view.set := by
  have hi0 : (i 0).val < 150000 := (i 0).isLt
  have hi1 : (i 1).val < 64 := (i 1).isLt
  obtain ⟨t, ht⟩ := onto2 ⟨(i 0).val / 6000, by omega⟩
  have q0 : win2_4.index t (0 : Fin 2) = (i 0).val / 6000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 6000 ≤ (i 0).val ∧ (i 0).val < win2_4.index t (0 : Fin 2) * 6000 + 6000; omega
  | ⟨1, _⟩ => show win2_4.index t (1 : Fin 2) * 64 ≤ (i 1).val ∧ (i 1).val < win2_4.index t (1 : Fin 2) * 64 + 64; omega

/-- The array the averaging region leaves: the average of the four arrays it finds. -/
theorem final2 (c : Dev nD) : (dat2 V c).arrAt 4 cfg2.N = avg4 (V c main_v2) (V c main_v15) (V c main_v28) (V c main_v41) :=
  (dat2 V c).arrAt_eq_of_cover 4 _ (fun t _ => flushed2 V c t) (cover2)

end Cert.KernelIdeal.Arrays

end
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.KernelValue.lean ====
/-
  The idealized kernel's two results as functions of its arguments.

  The program is: fuse the user table and the item table (two pallas regions), lay the two fused tables end to end into
  the node states x0, propagate three times over the graph (x1 = hop x0, x2 = hop x1, x3 = hop x2, where one hop gathers
  the rows at the edges' column nodes, scales each by the edge's value and adds them up at the edges' row nodes), average
  the four states (a pallas region), and cut the average back into the users' rows and the items' rows. The hop, the
  joining and the two cuts are host operations; they are named here as functions and never opened. What each region
  leaves is the whole-array function of what it finds (KernelArrays); the contents at the boundaries between segments
  are walked back to the launch memory.
-/
import proofs.«118412_j20684562498310_1_alg».proof.Proof.KernelRun
import proofs.«118412_j20684562498310_1_alg».proof.Proof.KernelArrays
import proofs.«118412_j20684562498310_1_alg».proof.Proof.LibConcatPair
import Idealize.ShloMosaic.Lib.StableHlo.Run

set_option maxRecDepth 16384

noncomputable section

namespace Cert.KernelIdeal.Result

open Cert.KernelIdeal Cert.KernelIdeal.Gen Cert.KernelIdeal.Arrays Cert.KernelIdeal.Results
open Idealize.ShloMosaic Idealize.ShloMosaic.ValueIdx Idealize.ShloMosaic.TcCoe Idealize.SL.Sem Idealize.ShloMosaic.StableHlo
open Cert.LibSoftmaxMix

/-! ## The host operations, named -/

/-- The two fused tables laid end to end: users first, then items. -/
def join (u : Vec Ideal S100000x64 .f32) (i : Vec Ideal S50000x64 .f32) : Vec Ideal S150000x64 .f32 :=
  Cert.LibConcatPair.concat2 S150000x64 0 S100000x64 S50000x64 concatenates_S100000x64_S50000x64_S150000x64_d0 u i

/-- One propagation step over the graph: the rows of `x` at the edges' column nodes (a negative column counted from the
    end), each scaled by its edge's value, added up at the edges' row nodes from zero. -/
def hop (vals : Vec Ideal S3200000 .f32) (rows cols : Vec Ideal S3200000 .i32) (x : Vec Ideal S150000x64 .f32) :
    Vec Ideal S150000x64 .f32 :=
  Host.scatterAdd scatter_S150000x64_S3200000x1_S3200000x64_1_0_0_1
    (broadcastInDim S150000x64 ![] bcast_S_S150000x64 (constant (F := Ideal) S_ .f32 0x00000000#32))
    (broadcastInDim S3200000x1 ![0] bcast_S3200000_S3200000x1_0 rows)
    (mulf (broadcastInDim S3200000x64 ![0, 1] bcast_S3200000x1_S3200000x64_0_1 (broadcastInDim S3200000x1 ![0] bcast_S3200000_S3200000x1_0 vals))
      (Host.gather gather_S150000x64_S3200000x1_S3200000x64_1_0_n_n_0_1_164 x
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 150000#32))) cols))))

/-- The users' rows of the node states. -/
def users (x : Vec Ideal S150000x64 .f32) : Vec Ideal S100000x64 .f32 :=
  extractStridedSlice S100000x64 ![0, 0] x slices_S150000x64_S100000x64_0_0

/-- The items' rows of the node states. -/
def items (x : Vec Ideal S150000x64 .f32) : Vec Ideal S50000x64 .f32 :=
  extractStridedSlice S50000x64 ![100000, 0] x slices_S150000x64_S50000x64_100000_0

/-- The node states after no, one, two and three hops, combined by `avg`. -/
def spread (avg : (x0 x1 x2 x3 : Vec Ideal S150000x64 .f32) → Vec Ideal S150000x64 .f32)
    (vals : Vec Ideal S3200000 .f32) (rows cols : Vec Ideal S3200000 .i32) (x0 : Vec Ideal S150000x64 .f32) :
    Vec Ideal S150000x64 .f32 :=
  avg x0 (hop vals rows cols x0) (hop vals rows cols (hop vals rows cols x0))
    (hop vals rows cols (hop vals rows cols (hop vals rows cols x0)))

/-! ## The host stretches read back -/

/-- The evaluation pass over a stretch of host operations, a two-part concatenate read as a function of its two parts. -/
local macro "after_pair" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatPair.concatenate_pair]))

section Stretch

variable (U : Valuation τ sig (Elt Ideal))

/-- After the middle stretch the node states x0 are the two fused tables end to end. -/
theorem mid_v2 : StableHlo.after (hostOps2 (F := Ideal)) U (Proc.devRef .tc main_v2)
    = join (U (Proc.devRef .tc main_v0)) (U (Proc.devRef .tc main_v1)) := by
  after_pair; rfl

/-- x1 is one hop from x0. -/
theorem mid_v15 : StableHlo.after (hostOps2 (F := Ideal)) U (Proc.devRef .tc main_v15)
    = hop (U (Proc.devRef .tc main_arg8)) (U (Proc.devRef .tc main_arg9)) (U (Proc.devRef .tc main_arg10))
        (join (U (Proc.devRef .tc main_v0)) (U (Proc.devRef .tc main_v1))) := by
  after_pair; rfl

/-- x2 is two hops from x0. -/
theorem mid_v28 : StableHlo.after (hostOps2 (F := Ideal)) U (Proc.devRef .tc main_v28)
    = hop (U (Proc.devRef .tc main_arg8)) (U (Proc.devRef .tc main_arg9)) (U (Proc.devRef .tc main_arg10))
        (hop (U (Proc.devRef .tc main_arg8)) (U (Proc.devRef .tc main_arg9)) (U (Proc.devRef .tc main_arg10))
          (join (U (Proc.devRef .tc main_v0)) (U (Proc.devRef .tc main_v1)))) := by
  after_pair; rfl

/-- x3 is three hops from x0. -/
theorem mid_v41 : StableHlo.after (hostOps2 (F := Ideal)) U (Proc.devRef .tc main_v41)
    = hop (U (Proc.devRef .tc main_arg8)) (U (Proc.devRef .tc main_arg9)) (U (Proc.devRef .tc main_arg10))
        (hop (U (Proc.devRef .tc main_arg8)) (U (Proc.devRef .tc main_arg9)) (U (Proc.devRef .tc main_arg10))
          (hop (U (Proc.devRef .tc main_arg8)) (U (Proc.devRef .tc main_arg9)) (U (Proc.devRef .tc main_arg10))
            (join (U (Proc.devRef .tc main_v0)) (U (Proc.devRef .tc main_v1))))) := by
  after_pair; rfl

/-- After the closing stretch the first result is the users' rows of the averaging region's output. -/
theorem tail_v43 : StableHlo.after (hostOps3 (F := Ideal)) U (Proc.devRef .tc main_v43) = users (U (Proc.devRef .tc main_v42)) := by
  after_pair; rfl

/-- And the second result is its items' rows. -/
theorem tail_v44 : StableHlo.after (hostOps3 (F := Ideal)) U (Proc.devRef .tc main_v44) = items (U (Proc.devRef .tc main_v42)) := by
  after_pair; rfl

end Stretch

/-! ## The boundaries walked back to the launch memory -/

variable (m : (ℓ : Loc nD τ sig) → Buf (Elt Ideal) ℓ) (ρ : Dev nD → PrngReg)

/-- An argument no region writes and no host operation writes is, after the two fusion regions, as launched. -/
theorem W2_arg (c : Dev nD) (b : Ref sig .tc) (h1 : ∀ w, Pipeline.arrRef spec1 w ≠ b) (h0 : ∀ w, Pipeline.arrRef spec0 w ≠ b) :
    W2 m ρ c (Proc.devRef .tc b) = m ((c.tc : Thread nD τ).loc b) :=
  (W2_of_ne m ρ c b h1).trans (W1_of_ne m ρ c b h0)

/-- The fused user table: the mix of the launched user table with the launched user weights, bias and intents. -/
theorem W2_v0 (c : Dev nD) : W2 m ρ c (Proc.devRef .tc main_v0)
    = mixArr half negInf (m ((c.tc : Thread nD τ).loc main_arg4)) (m ((c.tc : Thread nD τ).loc main_arg5)) (m ((c.tc : Thread nD τ).loc main_arg2)) (m ((c.tc : Thread nD τ).loc main_arg0)) :=
  (W2_of_ne m ρ c main_v0 (by decide)).trans ((W1_arr m ρ c 4).trans (final0 (V0 m ρ) c))

/-- The fused item table, likewise: the item-side operands reach the second region as launched. -/
theorem W2_v1 (c : Dev nD) : W2 m ρ c (Proc.devRef .tc main_v1)
    = mixArr half negInf (m ((c.tc : Thread nD τ).loc main_arg6)) (m ((c.tc : Thread nD τ).loc main_arg7)) (m ((c.tc : Thread nD τ).loc main_arg3)) (m ((c.tc : Thread nD τ).loc main_arg1)) := by
  refine (W2_arr m ρ c 4).trans ((final1 (V1 m ρ) c).trans ?_)
  rw [show V1 m ρ c main_arg6 = m ((c.tc : Thread nD τ).loc main_arg6) from W1_of_ne m ρ c main_arg6 (by decide),
    show V1 m ρ c main_arg7 = m ((c.tc : Thread nD τ).loc main_arg7) from W1_of_ne m ρ c main_arg7 (by decide),
    show V1 m ρ c main_arg3 = m ((c.tc : Thread nD τ).loc main_arg3) from W1_of_ne m ρ c main_arg3 (by decide),
    show V1 m ρ c main_arg1 = m ((c.tc : Thread nD τ).loc main_arg1) from W1_of_ne m ρ c main_arg1 (by decide)]

/-- The node states x0 as a function of the launch memory. -/
def nodes (c : Dev nD) : Vec Ideal S150000x64 .f32 :=
  join (mixArr half negInf (m ((c.tc : Thread nD τ).loc main_arg4)) (m ((c.tc : Thread nD τ).loc main_arg5)) (m ((c.tc : Thread nD τ).loc main_arg2)) (m ((c.tc : Thread nD τ).loc main_arg0)))
    (mixArr half negInf (m ((c.tc : Thread nD τ).loc main_arg6)) (m ((c.tc : Thread nD τ).loc main_arg7)) (m ((c.tc : Thread nD τ).loc main_arg3)) (m ((c.tc : Thread nD τ).loc main_arg1)))

/-- The averaging region's output: the average of the node states after no, one, two and three hops. -/
theorem W4_v42 (c : Dev nD) : W4 m ρ c (Proc.devRef .tc main_v42)
    = spread avg4 (m ((c.tc : Thread nD τ).loc main_arg8)) (m ((c.tc : Thread nD τ).loc main_arg9)) (m ((c.tc : Thread nD τ).loc main_arg10)) (nodes m c) := by
  refine (W4_arr m ρ c 4).trans ((final2 (V3 m ρ) c).trans ?_)
  have e8 := W2_arg m ρ c main_arg8 (by decide) (by decide)
  have e9 := W2_arg m ρ c main_arg9 (by decide) (by decide)
  have e10 := W2_arg m ρ c main_arg10 (by decide) (by decide)
  have x0 : V3 m ρ c main_v2 = nodes m c := by
    refine (mid_v2 (W2 m ρ c)).trans ?_
    rw [W2_v0, W2_v1]; rfl
  have x1 : V3 m ρ c main_v15 = hop (m ((c.tc : Thread nD τ).loc main_arg8)) (m ((c.tc : Thread nD τ).loc main_arg9)) (m ((c.tc : Thread nD τ).loc main_arg10)) (nodes m c) := by
    refine (mid_v15 (W2 m ρ c)).trans ?_
    rw [W2_v0, W2_v1, e8, e9, e10]; rfl
  have x2 : V3 m ρ c main_v28 = hop (m ((c.tc : Thread nD τ).loc main_arg8)) (m ((c.tc : Thread nD τ).loc main_arg9)) (m ((c.tc : Thread nD τ).loc main_arg10)) (hop (m ((c.tc : Thread nD τ).loc main_arg8)) (m ((c.tc : Thread nD τ).loc main_arg9)) (m ((c.tc : Thread nD τ).loc main_arg10)) (nodes m c)) := by
    refine (mid_v28 (W2 m ρ c)).trans ?_
    rw [W2_v0, W2_v1, e8, e9, e10]; rfl
  have x3 : V3 m ρ c main_v41 = hop (m ((c.tc : Thread nD τ).loc main_arg8)) (m ((c.tc : Thread nD τ).loc main_arg9)) (m ((c.tc : Thread nD τ).loc main_arg10)) (hop (m ((c.tc : Thread nD τ).loc main_arg8)) (m ((c.tc : Thread nD τ).loc main_arg9)) (m ((c.tc : Thread nD τ).loc main_arg10)) (hop (m ((c.tc : Thread nD τ).loc main_arg8)) (m ((c.tc : Thread nD τ).loc main_arg9)) (m ((c.tc : Thread nD τ).loc main_arg10)) (nodes m c))) := by
    refine (mid_v41 (W2 m ρ c)).trans ?_
    rw [W2_v0, W2_v1, e8, e9, e10]; rfl
  rw [x0, x1, x2, x3]; rfl

/-- The first result: the users' rows of the average. -/
theorem W5_v43 (c : Dev nD) : W5 m ρ c (Proc.devRef .tc main_v43)
    = users (spread avg4 (m ((c.tc : Thread nD τ).loc main_arg8)) (m ((c.tc : Thread nD τ).loc main_arg9)) (m ((c.tc : Thread nD τ).loc main_arg10)) (nodes m c)) :=
  (tail_v43 (W4 m ρ c)).trans (congrArg users (W4_v42 m ρ c))

/-- The second result: the items' rows of the average. -/
theorem W5_v44 (c : Dev nD) : W5 m ρ c (Proc.devRef .tc main_v44)
    = items (spread avg4 (m ((c.tc : Thread nD τ).loc main_arg8)) (m ((c.tc : Thread nD τ).loc main_arg9)) (m ((c.tc : Thread nD τ).loc main_arg10)) (nodes m c)) :=
  (tail_v44 (W4 m ρ c)).trans (congrArg items (W4_v42 m ρ c))

/-! ## The run, with the results named -/

/-- Every weakly fair execution of the idealized kernel terminates without a fault, with the two results at the users'
    and items' rows of the average of the propagated node states and the arguments unchanged. -/
theorem run : θ_run defs (onTc (τ := τ) (main (F := Ideal))) ⟨m, fun _ => 0, ρ⟩ (fun r => ∀ c : Dev nD,
      r.2.mem ((c.tc : Thread nD τ).loc main_v43) = users (spread avg4 (m ((c.tc : Thread nD τ).loc main_arg8)) (m ((c.tc : Thread nD τ).loc main_arg9)) (m ((c.tc : Thread nD τ).loc main_arg10)) (nodes m c))
      ∧ r.2.mem ((c.tc : Thread nD τ).loc main_v44) = items (spread avg4 (m ((c.tc : Thread nD τ).loc main_arg8)) (m ((c.tc : Thread nD τ).loc main_arg9)) (m ((c.tc : Thread nD τ).loc main_arg10)) (nodes m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_v43 (by decide)).trans (W5_v43 m ρ c),
     (h c main_v44 (by decide)).trans (W5_v44 m ρ c),
     (h c main_arg0 (by decide)).trans (W5_main_arg0 m ρ c),
     (h c main_arg1 (by decide)).trans (W5_main_arg1 m ρ c),
     (h c main_arg2 (by decide)).trans (W5_main_arg2 m ρ c),
     (h c main_arg3 (by decide)).trans (W5_main_arg3 m ρ c),
     (h c main_arg4 (by decide)).trans (W5_main_arg4 m ρ c),
     (h c main_arg5 (by decide)).trans (W5_main_arg5 m ρ c),
     (h c main_arg6 (by decide)).trans (W5_main_arg6 m ρ c),
     (h c main_arg7 (by decide)).trans (W5_main_arg7 m ρ c),
     (h c main_arg8 (by decide)).trans (W5_main_arg8 m ρ c),
     (h c main_arg9 (by decide)).trans (W5_main_arg9 m ρ c),
     (h c main_arg10 (by decide)).trans (W5_main_arg10 m ρ c)⟩)
    (run_at m ρ)

end Cert.KernelIdeal.Result

end
-- ==== Proof.Quarter.lean ====
/-
  Dividing by four is multiplying by a quarter, at every extended real.

  The f32 word 0x40800000 denotes the real number 4 and the word 0x3E800000 denotes 1/4, both exactly (they are powers of
  two). On the extended reals the quotient by a non-zero real is the product with its inverse, infinities included, so the
  mean of four arrays taken by a division by 4 and the one taken by a product with 0.25 are the same number.
-/
import Idealize.ShloMosaic.PureOps.Ideal

noncomputable section

namespace Cert.Quarter

open Idealize.ShloMosaic

/-- The word of `4.0` denotes the real 4. -/
theorem ofBits_four : Ideal.ofBits .f32 0x40800000#32 = ((4 : ℝ) : EReal) := by
  simp [Ideal.ofBits, Ideal.ieee, -EReal.coe_mul]; norm_num

/-- The word of `0.25` denotes the real 1/4. -/
theorem ofBits_quarter : Ideal.ofBits .f32 0x3E800000#32 = ((1 / 4 : ℝ) : EReal) := by
  simp [Ideal.ofBits, Ideal.ieee, -EReal.coe_mul]; norm_num

/-- The quotient by 4 is the product with 1/4, at every extended real. -/
theorem div_four (x : EReal) :
    Ideal.div x (Ideal.ofBits .f32 0x40800000#32) = x * Ideal.ofBits .f32 0x3E800000#32 := by
  rw [ofBits_four, ofBits_quarter, Ideal.div_coe (by norm_num : (4 : ℝ) ≠ 0)]

end Cert.Quarter

end
-- ==== Proof.RefValue.lean ====
/-
  The idealized reference's two results as the same functions of its arguments.

  The reference is a host program: the same fusion of the two tables, written with dot_general, stablehlo.reduce and
  broadcast_in_dim; the same joining, the same three hops over the graph and the same two cuts; and the mean of the four
  node states taken by a division by 4. Its run's result terms are folded into the functions the kernel's results are
  stated with (only definitions are unfolded: the hops, the joining and the cuts are the same operations at the same
  records). What is left is two facts: the host spelling of the fusion is the mix of each row (LibSoftmaxMix), and the
  quotient by 4 is the product with a quarter at every extended real (Quarter). Neither needs the inputs finite.
-/
import proofs.«118412_j20684562498310_1_alg».proof.Proof.RefRun
import proofs.«118412_j20684562498310_1_alg».proof.Proof.KernelValue
import proofs.«118412_j20684562498310_1_alg».proof.Proof.Quarter

set_option maxRecDepth 16384

noncomputable section

namespace Cert.ReferenceIdeal.Result

open Cert.ReferenceIdeal Cert.ReferenceIdeal.Gen
open Idealize.ShloMosaic Idealize.ShloMosaic.ValueIdx Idealize.ShloMosaic.TcCoe Idealize.SL.Sem
open Cert.LibSoftmaxMix
open Cert.KernelIdeal.Result (join hop users items spread)
open Cert.KernelIdeal.Arrays (avg4 half negInf quarter)

/-- The mean of four arrays as the reference takes it: their sum, in the order given, divided by the word of 4. -/
def avgDiv (x0 x1 x2 x3 : Vec Ideal S150000x64 .f32) : Vec Ideal S150000x64 .f32 :=
  Host.divf (addf (addf (addf x0 x1) x2) x3) (broadcastInDim S150000x64 ![] bcast_S_S150000x64 (constant (F := Ideal) S_ .f32 0x40800000#32))

/-- The quotient by 4 is the product with a quarter: the reference's mean is the kernel's. -/
theorem avgDiv_eq : avgDiv = avg4 (s := S150000x64) := by
  funext x0 x1 x2 x3 i
  show Ideal.div (((x0 i + x1 i) + x2 i) + x3 i) (Ideal.ofBits .f32 0x40800000#32)
    = (((x0 i + x1 i) + x2 i) + x3 i) * Ideal.ofBits .f32 0x3E800000#32
  exact Cert.Quarter.div_four _

variable (m : (ℓ : Loc nD τ sig) → Buf (Elt Ideal) ℓ)

/-- The reference's node states x0: the two tables fused in the host's spelling, end to end. -/
def hostNodes (c : Dev nD) : Vec Ideal S150000x64 .f32 :=
  join (hMix reducesTo_S100000x4_S100000_d1 h_S_ bcast_S_S100000 bcast_S100000_S100000x1_0 bcast_S100000x1_S100000x4_0_1
      dot_S100000x64_S64x4_S100000x4_1_0_0_1_n_n dot_S100000x4_S4x64_S100000x64_1_0_0_1_n_n bcast_S4_S1x4_1 bcast_S1x4_S100000x4_0_1 bcast_S_S100000x64
      0x3F000000#32 0xFF800000#32 0x00000000#32 (m ((c.tc : Thread nD τ).loc main_arg0)) (m ((c.tc : Thread nD τ).loc main_arg4)) (m ((c.tc : Thread nD τ).loc main_arg5)) (m ((c.tc : Thread nD τ).loc main_arg2)))
    (hMix reducesTo_S50000x4_S50000_d1 h_S_ bcast_S_S50000 bcast_S50000_S50000x1_0 bcast_S50000x1_S50000x4_0_1
      dot_S50000x64_S64x4_S50000x4_1_0_0_1_n_n dot_S50000x4_S4x64_S50000x64_1_0_0_1_n_n bcast_S4_S1x4_1 bcast_S1x4_S50000x4_0_1 bcast_S_S50000x64
      0x3F000000#32 0xFF800000#32 0x00000000#32 (m ((c.tc : Thread nD τ).loc main_arg1)) (m ((c.tc : Thread nD τ).loc main_arg6)) (m ((c.tc : Thread nD τ).loc main_arg7)) (m ((c.tc : Thread nD τ).loc main_arg3)))

/-- The host's spelling of the fusion is the mix of each row, for both tables. -/
theorem hostNodes_eq (c : Dev nD) : hostNodes m c
    = join (mixArr half negInf (m ((c.tc : Thread nD τ).loc main_arg4)) (m ((c.tc : Thread nD τ).loc main_arg5)) (m ((c.tc : Thread nD τ).loc main_arg2)) (m ((c.tc : Thread nD τ).loc main_arg0)))
        (mixArr half negInf (m ((c.tc : Thread nD τ).loc main_arg6)) (m ((c.tc : Thread nD τ).loc main_arg7)) (m ((c.tc : Thread nD τ).loc main_arg3)) (m ((c.tc : Thread nD τ).loc main_arg1))) := by
  unfold hostNodes
  rw [hMix_eq reducesTo_S100000x4_S100000_d1 h_S_ bcast_S_S100000 bcast_S100000_S100000x1_0 bcast_S100000x1_S100000x4_0_1
      dot_S100000x64_S64x4_S100000x4_1_0_0_1_n_n dot_S100000x4_S4x64_S100000x64_1_0_0_1_n_n bcast_S4_S1x4_1 bcast_S1x4_S100000x4_0_1 bcast_S_S100000x64
      rfl rfl rfl rfl rfl rfl rfl rfl rfl rfl rfl rfl (by decide : S100000x4.Reduces [1] S100000) 0x3F000000#32 0xFF800000#32 (m ((c.tc : Thread nD τ).loc main_arg0)) (m ((c.tc : Thread nD τ).loc main_arg4)) (m ((c.tc : Thread nD τ).loc main_arg5)) (m ((c.tc : Thread nD τ).loc main_arg2)),
    hMix_eq reducesTo_S50000x4_S50000_d1 h_S_ bcast_S_S50000 bcast_S50000_S50000x1_0 bcast_S50000x1_S50000x4_0_1
      dot_S50000x64_S64x4_S50000x4_1_0_0_1_n_n dot_S50000x4_S4x64_S50000x64_1_0_0_1_n_n bcast_S4_S1x4_1 bcast_S1x4_S50000x4_0_1 bcast_S_S50000x64
      rfl rfl rfl rfl rfl rfl rfl rfl rfl rfl rfl rfl (by decide : S50000x4.Reduces [1] S50000) 0x3F000000#32 0xFF800000#32 (m ((c.tc : Thread nD τ).loc main_arg1)) (m ((c.tc : Thread nD τ).loc main_arg6)) (m ((c.tc : Thread nD τ).loc main_arg7)) (m ((c.tc : Thread nD τ).loc main_arg3))]

/-- The run's first result term, folded: the users' rows of the mean of the propagated node states. -/
theorem res0_fold (c : Dev nD) : Cert.ReferenceIdeal.ValueP.res_main_v83 (F := Ideal) m c
    = users (spread avgDiv (m ((c.tc : Thread nD τ).loc main_arg8)) (m ((c.tc : Thread nD τ).loc main_arg9)) (m ((c.tc : Thread nD τ).loc main_arg10)) (hostNodes m c)) := by
  unfold Cert.ReferenceIdeal.ValueP.res_main_v83
  rfl

/-- The run's second result term, folded: the items' rows of the same mean. -/
theorem res1_fold (c : Dev nD) : Cert.ReferenceIdeal.ValueP.res_main_v84 (F := Ideal) m c
    = items (spread avgDiv (m ((c.tc : Thread nD τ).loc main_arg8)) (m ((c.tc : Thread nD τ).loc main_arg9)) (m ((c.tc : Thread nD τ).loc main_arg10)) (hostNodes m c)) := by
  unfold Cert.ReferenceIdeal.ValueP.res_main_v84
  rfl

/-- The mean of the propagated node states, with the fusion read as the mix and the division as the product. -/
theorem mean_eq (c : Dev nD) : spread avgDiv (m ((c.tc : Thread nD τ).loc main_arg8)) (m ((c.tc : Thread nD τ).loc main_arg9)) (m ((c.tc : Thread nD τ).loc main_arg10)) (hostNodes m c)
    = spread avg4 (m ((c.tc : Thread nD τ).loc main_arg8)) (m ((c.tc : Thread nD τ).loc main_arg9)) (m ((c.tc : Thread nD τ).loc main_arg10))
        (join (mixArr half negInf (m ((c.tc : Thread nD τ).loc main_arg4)) (m ((c.tc : Thread nD τ).loc main_arg5)) (m ((c.tc : Thread nD τ).loc main_arg2)) (m ((c.tc : Thread nD τ).loc main_arg0)))
          (mixArr half negInf (m ((c.tc : Thread nD τ).loc main_arg6)) (m ((c.tc : Thread nD τ).loc main_arg7)) (m ((c.tc : Thread nD τ).loc main_arg3)) (m ((c.tc : Thread nD τ).loc main_arg1)))) := by
  rw [avgDiv_eq, hostNodes_eq]

end Cert.ReferenceIdeal.Result

end
-- ==== Proof.lean ====
/-
  Intent-fused graph propagation: a pallas implementation against its jnp reference, equal at the extended reals.

  Both programs compute, from a user table and an item table of 64 features per row:
    * the fusion of each table with its four intents — a row e becomes e + 1/2 · Σ_k w_k · I_k, where w is the softmax
      of the row's four logits e·W + b (the largest logit taken from −∞ and subtracted before exponentiating);
    * the node states x0 (the fused users, then the fused items) and three propagation steps over the graph
      x1 = hop x0, x2 = hop x1, x3 = hop x2 (gather the rows at the edges' column nodes, scale by the edge values, add up
      at the row nodes);
    * the mean of x0, x1, x2, x3, cut back into users and items.
  The kernel computes the two fusions and the mean in three pallas regions — the fusions block by block, 5000 rows at a
  time, with the matrix products on bf16 copies of their operands; the mean block by block, 6000 rows at a time, as the
  sum times 0.25 — and leaves the joining, the hops and the cuts to the host. The reference does everything on the host
  and takes the mean as the sum divided by 4.
  At the extended reals a change of float format is the identity, a product into a zero accumulator is the plain sum of
  products, and a fusion's entry reads its own row only, so the blocks of the kernel's fusion are the blocks of the
  reference's; the hops, the joining and the cuts are the same operations on both sides and are never opened; and the
  quotient by 4 is the product with 1/4 at every extended real, infinities included. No step needs the inputs finite, so
  the precondition is never opened.

  The claims: the two kernels' frames are the generated ones; the reference's frame is its run with the results
  dropped; the idealization rewrote nothing, so `preserves` is trivial; `algebraic` posts the two runs with the same
  two terms.
-/
import proofs.«118412_j20684562498310_1_alg».proof.Defs
import proofs.«118412_j20684562498310_1_alg».proof.Proof.Gen.Kernel
import proofs.«118412_j20684562498310_1_alg».proof.Proof.Gen.Kernel.Frame
import proofs.«118412_j20684562498310_1_alg».proof.Proof.Gen.KernelIdeal
import proofs.«118412_j20684562498310_1_alg».proof.Proof.Gen.KernelIdeal.Frame
import proofs.«118412_j20684562498310_1_alg».proof.Proof.Gen.ReferenceIdeal
import proofs.«118412_j20684562498310_1_alg».proof.Proof.Gen.Pre_finite_inputs
import proofs.«118412_j20684562498310_1_alg».proof.Proof.KernelValue
import proofs.«118412_j20684562498310_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories that agree on the arguments the two idealized programs end with the same two results: the users' and
    the items' rows of the mean of the node states after no, one, two and three hops, the node states the two tables
    fused row by row. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.Result.res0_fold, Cert.ReferenceIdeal.Result.mean_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    rfl
  · rw [Cert.ReferenceIdeal.Result.res1_fold, Cert.ReferenceIdeal.Result.mean_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
